-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x10 : Shape := ⟨2, ![4000000, 10]⟩
abbrev S_ : Shape := ⟨0, ![]⟩

class Facts : Prop where
  bcast_S_S4000000x10 : S_.BroadcastsInDim S4000000x10 (![] : Fin 0 → Fin S4000000x10.rank)
  reducesTo_S4000000x10_S_d0_1 : S4000000x10.ReducesTo [0, 1] S_
  h_S_ : 0 < S_.numel

variable [Facts]

def fn {F : FTy → Type} [FloatOps F] (main_arg0 : FVec F S4000000x10 .f32) (main_arg1 : FVec F S4000000x10 .f32) : IVec S_ 1 :=
  let main_v0 : FVec F S4000000x10 .f32 := Host.absf main_arg0
  let main_cst : FVec F S_ .f32 := constant S_ .f32 0x7F800000#32
  let main_v1 : FVec F S4000000x10 .f32 := broadcastInDim S4000000x10 ![] bcast_S_S4000000x10 main_cst
  let main_v2 : IVec S4000000x10 1 := cmpf .olt main_v0 main_v1
  let main_c : IVec S_ 1 := constantI S_ 1 1#1
  let main_v3 : IVec S_ 1 := (fun x v => Host.reduce IntOp.andi x v reducesTo_S4000000x10_S_d0_1 h_S_) main_v2 main_c
  let main_v4 : FVec F S4000000x10 .f32 := Host.absf main_arg1
  let main_cst_0 : FVec F S_ .f32 := constant S_ .f32 0x7F800000#32
  let main_v5 : FVec F S4000000x10 .f32 := broadcastInDim S4000000x10 ![] bcast_S_S4000000x10 main_cst_0
  let main_v6 : IVec S4000000x10 1 := cmpf .olt main_v4 main_v5
  let main_c_1 : IVec S_ 1 := constantI S_ 1 1#1
  let main_v7 : IVec S_ 1 := (fun x v => Host.reduce IntOp.andi x v reducesTo_S4000000x10_S_d0_1 h_S_) main_v6 main_c_1
  let main_v8 : IVec S_ 1 := andi main_v3 main_v7
  main_v8
-- ==== Kernel.lean ====
abbrev S4000000x10 : Shape := ⟨2, ![4000000, 10]⟩
abbrev S312500x128 : Shape := ⟨2, ![312500, 128]⟩
abbrev S16x128 : Shape := ⟨2, ![16, 128]⟩
abbrev S7816x128 : Shape := ⟨2, ![7816, 128]⟩
abbrev S8x128 : Shape := ⟨2, ![8, 128]⟩
abbrev S7816 : Shape := ⟨1, ![7816]⟩
abbrev S7816x1 : Shape := ⟨2, ![7816, 1]⟩
abbrev S1 : Shape := ⟨1, ![1]⟩
abbrev S1x1 : Shape := ⟨2, ![1, 1]⟩
abbrev S_ : Shape := ⟨0, ![]⟩

abbrev nBuf : Space → Nat
  | .hbm => 13
  | .vmem => 6
  | .smem => 0
  | _ => 0

abbrev bufTy : (tb : Table) → Fin (tcTables nBuf tb) → BufTy
  | .hbm, ⟨0, _⟩ => ⟨S4000000x10, .f32⟩
  | .hbm, ⟨1, _⟩ => ⟨S4000000x10, .f32⟩
  | .hbm, ⟨2, _⟩ => ⟨S312500x128, .f32⟩
  | .hbm, ⟨3, _⟩ => ⟨S312500x128, .f32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .local _ .vmem, ⟨0, _⟩ => ⟨S7816x128, .f32⟩
  | .local _ .vmem, ⟨1, _⟩ => ⟨S7816x128, .f32⟩
  | .local _ .vmem, ⟨2, _⟩ => ⟨S7816x128, .f32⟩
  | .local _ .vmem, ⟨3, _⟩ => ⟨S7816x128, .f32⟩
  | .local _ .vmem, ⟨4, _⟩ => ⟨S8x128, .f32⟩
  | .local _ .vmem, ⟨5, _⟩ => ⟨S8x128, .f32⟩
  | _, _ => ⟨S4000000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 20], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S7816x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7816x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4000000x10_S312500x128 : S4000000x10.ShapeCasts S312500x128
  inb_S8x128_S8x128_0_0 : ∀ a, (![0, 0] : Fin 2 → Nat) a + S8x128.size a ≤ S8x128.size a
  h_S8x128 : 0 < S8x128.numel
  inb_S7816x128_S7816x128_0_0 : ∀ a, (![0, 0] : Fin 2 → Nat) a + S7816x128.size a ≤ S7816x128.size a
  h_S7816x128 : 0 < S7816x128.numel
  shapeCasts_S7816x128_S7816x128 : S7816x128.ShapeCasts S7816x128
  iota_S7816x128_d0_w32 : S7816x128.Iotas .tc 32 [0]
  reduces_S7816x128_S7816 : S7816x128.Reduces [1] S7816
  shapeCasts_S7816_S7816x1 : S7816.ShapeCasts S7816x1
  reduces_S7816x1_S1 : S7816x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S7816x128.size a < S312500x128.size a
  hwx0_0 : ∀ i : grid0.Coords, EltTy.bits .f32 = 32 ∨ (Rect.unit (s := S312500x128) (fun a => cc0_transform_0 i a * S7816x128.size a) (fun a => (Pipeline.Clip.of (cc0_transform_0 i a) (S7816x128.size a) (S312500x128.size a)).extent (S7816x128.size a)) fun a => Pipeline.Clip.inb (Pipeline.Clip.ok_of (hstart0_0 i a))).WholeWords (EltTy.packing .f32)
  hwxs0_0 : ∀ i : grid0.Coords, EltTy.bits .f32 = 32 ∨ (Rect.unit (s := S7816x128) (fun _ => 0) (fun a => (Pipeline.Clip.of (cc0_transform_0 i a) (S7816x128.size a) (S312500x128.size a)).extent (S7816x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S7816x128.size a < S312500x128.size a
  hwx0_1 : ∀ i : grid0.Coords, EltTy.bits .f32 = 32 ∨ (Rect.unit (s := S312500x128) (fun a => cc0_transform_1 i a * S7816x128.size a) (fun a => (Pipeline.Clip.of (cc0_transform_1 i a) (S7816x128.size a) (S312500x128.size a)).extent (S7816x128.size a)) fun a => Pipeline.Clip.inb (Pipeline.Clip.ok_of (hstart0_1 i a))).WholeWords (EltTy.packing .f32)
  hwxs0_1 : ∀ i : grid0.Coords, EltTy.bits .f32 = 32 ∨ (Rect.unit (s := S7816x128) (fun _ => 0) (fun a => (Pipeline.Clip.of (cc0_transform_1 i a) (S7816x128.size a) (S312500x128.size a)).extent (S7816x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpecClip (Memref.whole main_v0) S7816x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S7816x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x10 : Shape := ⟨2, ![4000000, 10]⟩
abbrev S_ : Shape := ⟨0, ![]⟩
abbrev S1 : Shape := ⟨1, ![1]⟩

abbrev nBuf : Space → Nat
  | .hbm => 9
  | .vmem => 0
  | .smem => 0
  | _ => 0

abbrev bufTy : (tb : Table) → Fin (tcTables nBuf tb) → BufTy
  | .hbm, ⟨0, _⟩ => ⟨S4000000x10, .f32⟩
  | .hbm, ⟨1, _⟩ => ⟨S4000000x10, .f32⟩
  | .hbm, ⟨2, _⟩ => ⟨S4000000x10, .f32⟩
  | .hbm, ⟨3, _⟩ => ⟨S4000000x10, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | _, _ => ⟨S4000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S4000000x10_S_d0_1 : S4000000x10.ReducesTo [0, 1] S_
  h_S_ : 0 < S_.numel
  shapeCasts_S_S1 : S_.ShapeCasts S1

variable [Facts₀]

class Facts : Prop extends Facts₀ where

variable [Facts]
-- ==== Proof.BitsMask.lean ====
/-
  The row mask of the squared-difference kernel, and what the kernel body's accumulated value depends on.

  The grid has 40 points; point `t` works on rows `t * 7816 … t * 7816 + 7815` of a 312500-row array, and the last
  block overhangs the array's end by 140 rows.  The body compares `t * 7816 + r` with 312500 in 32-bit signed words
  and keeps the squared difference of the two blocks only on the rows below 312500, taking the zero word's value on the
  others.  Here: a block row is moved by the transfer exactly when it is inside the array; the body's comparison says
  the same; so the accumulated value reads the two blocks only on rows that the transfers move, and does not depend on
  what the staging buffers held before on the other rows.  Nothing here depends on the float instance.
-/
import proofs.«130651_j28741921145432_2_alg».proof.Proof.Gen.Kernel.Skeleton
import Idealize.ShloMosaic.Lib.ValueIdx
import Idealize.ShloMosaic.Lib.Pipeline.Value

noncomputable section

namespace Cert.Kernel.Mask

open Cert.Kernel Cert.Kernel.Gen Idealize.ShloMosaic Idealize.ShloMosaic.ValueIdx

variable {F : FTy → Type} [FloatOps F]

/-! ## The grid and the index maps in closed form -/

/-- The grid has 40 points. -/
theorem N_eq : grid0.N = 40 := by decide

/-- At point `t` the first operand's block index is `(t, 0)`. -/
theorem index0_closed : ∀ t : Fin grid0.N,
    cc0_transform_0 (grid0.coords t) 0 = t.val ∧ cc0_transform_0 (grid0.coords t) 1 = 0 := by decide +kernel

/-- At point `t` the second operand's block index is `(t, 0)`. -/
theorem index1_closed : ∀ t : Fin grid0.N,
    cc0_transform_1 (grid0.coords t) 0 = t.val ∧ cc0_transform_1 (grid0.coords t) 1 = 0 := by decide +kernel

/-- Row `r` of block `n` is below the cut at the array's end exactly when row `n * 7816 + r` is inside the array. -/
theorem extent_row (n r : Nat) (hn : n < 40) (hr : r < 7816) :
    r < (Pipeline.Clip.of n 7816 312500).extent 7816 ↔ n * 7816 + r < 312500 := by
  unfold Pipeline.Clip.of
  split
  · next h => show r < 7816 ↔ _; omega
  · next h => show r < 312500 - n * 7816 ↔ _; omega

/-! ## Which block rows a transfer moves -/

/-- The first operand's transfer at point `t` moves block index `j` exactly when its row is inside the array. -/
theorem moved_iff_row (t : Fin cfg0.N) (j : S7816x128.Idx) :
    win0_0.moved (grid0.coords t) j = true ↔ t.val * 7816 + (j 0).val < 312500 := by
  rw [Pipeline.Window.moved_iff]
  obtain ⟨h0, h1⟩ := index0_closed t
  have ht : t.val < 40 := lt_of_lt_of_eq t.isLt N_eq
  have hj0 : (j 0).val < 7816 := idx2_lt0 j
  have hj1 : (j 1).val < 128 := idx2_lt1 j
  have x0 : win0_0.xsize (grid0.coords t) 0 = (Pipeline.Clip.of t.val 7816 312500).extent 7816 := by
    show (Pipeline.Clip.of (cc0_transform_0 (grid0.coords t) 0) 7816 312500).extent 7816 = _
    rw [h0]
  have x1 : win0_0.xsize (grid0.coords t) 1 = 128 := by
    show (Pipeline.Clip.of (cc0_transform_0 (grid0.coords t) 1) 128 128).extent 128 = _
    rw [h1]; rfl
  constructor
  · intro h
    have h' := h 0
    rw [x0] at h'
    exact (extent_row t.val (j 0).val ht hj0).mp h'
  · intro h a
    match a with
    | ⟨0, _⟩ =>
      show (j 0).val < win0_0.xsize (grid0.coords t) 0
      rw [x0]; exact (extent_row t.val (j 0).val ht hj0).mpr h
    | ⟨1, _⟩ =>
      show (j 1).val < win0_0.xsize (grid0.coords t) 1
      rw [x1]; exact hj1

/-- The second operand's transfer likewise. -/
theorem moved_iff_row1 (t : Fin cfg0.N) (j : S7816x128.Idx) :
    win0_1.moved (grid0.coords t) j = true ↔ t.val * 7816 + (j 0).val < 312500 := by
  rw [Pipeline.Window.moved_iff]
  obtain ⟨h0, h1⟩ := index1_closed t
  have ht : t.val < 40 := lt_of_lt_of_eq t.isLt N_eq
  have hj0 : (j 0).val < 7816 := idx2_lt0 j
  have hj1 : (j 1).val < 128 := idx2_lt1 j
  have x0 : win0_1.xsize (grid0.coords t) 0 = (Pipeline.Clip.of t.val 7816 312500).extent 7816 := by
    show (Pipeline.Clip.of (cc0_transform_1 (grid0.coords t) 0) 7816 312500).extent 7816 = _
    rw [h0]
  have x1 : win0_1.xsize (grid0.coords t) 1 = 128 := by
    show (Pipeline.Clip.of (cc0_transform_1 (grid0.coords t) 1) 128 128).extent 128 = _
    rw [h1]; rfl
  constructor
  · intro h
    have h' := h 0
    rw [x0] at h'
    exact (extent_row t.val (j 0).val ht hj0).mp h'
  · intro h a
    match a with
    | ⟨0, _⟩ =>
      show (j 0).val < win0_1.xsize (grid0.coords t) 0
      rw [x0]; exact (extent_row t.val (j 0).val ht hj0).mpr h
    | ⟨1, _⟩ =>
      show (j 1).val < win0_1.xsize (grid0.coords t) 1
      rw [x1]; exact hj1

/-! ## The body's comparison -/

/-- The body's integer chain — the block's first row in the array — is `t * 7816` at point `t`. -/
theorem row0_closed : ∀ t : Fin grid0.N,
    Scalar.muli (Scalar.addi (Scalar.muli (BitVec.ofNat 32 (grid0.coords t 0).val) 20#32)
      (BitVec.ofNat 32 (grid0.coords t 1).val)) 7816#32 = BitVec.ofNat 32 (t.val * 7816) := by decide +kernel

/-- For a natural number far below `2 ^ 31` the signed 32-bit comparison with 312500 is the comparison of naturals. -/
theorem slt_small (n : Nat) (hn : n < 320000) :
    IntOp.cmpi .slt (BitVec.ofNat 32 n) 312500#32 = 1#1 ↔ n < 312500 := by
  unfold IntOp.cmpi
  show BitVec.ofBool ((BitVec.ofNat 32 n).slt 312500#32) = 1#1 ↔ _
  have hto : (BitVec.ofNat 32 n).toInt = (n : Int) := by
    rw [BitVec.toInt_eq_toNat_cond, BitVec.toNat_ofNat]
    have hm : n % 2 ^ 32 = n := Nat.mod_eq_of_lt (by omega)
    rw [hm]
    split
    · rfl
    · next h => exact absurd (by omega : 2 * n < 2 ^ 32) h
  have h2 : (312500#32 : BitVec 32).toInt = 312500 := by decide
  rw [BitVec.slt, hto, h2]
  by_cases h : n < 312500
  · have hd : decide ((n : Int) < 312500) = true := decide_eq_true (by omega)
    rw [hd]; exact ⟨fun _ => h, fun _ => rfl⟩
  · have hd : decide ((n : Int) < 312500) = false := decide_eq_false (by omega)
    rw [hd]; exact ⟨fun h' => absurd h' (by decide), fun h' => absurd h' h⟩

/-- The body's mask bit at row `r` of the block at point `t` is set exactly when row `t * 7816 + r` is inside the
    array. -/
theorem mask_iff (t : Fin cfg0.N) (r : Fin 7816) :
    IntOp.cmpi .slt (IntOp.addi (Scalar.muli (Scalar.addi (Scalar.muli (BitVec.ofNat 32 (grid0.coords t 0).val) 20#32)
      (BitVec.ofNat 32 (grid0.coords t 1).val)) 7816#32) (BitVec.ofNat 32 r.val)) 312500#32 = 1#1
      ↔ t.val * 7816 + r.val < 312500 := by
  have ht : t.val < 40 := lt_of_lt_of_eq t.isLt N_eq
  have hr : r.val < 7816 := r.isLt
  rw [row0_closed t]
  have : IntOp.addi (BitVec.ofNat 32 (t.val * 7816)) (BitVec.ofNat 32 r.val) = BitVec.ofNat 32 (t.val * 7816 + r.val) := by
    unfold IntOp.addi; exact (BitVec.ofNat_add _ _).symm
  rw [this]
  exact slt_small _ (by omega)

/-! ## The accumulated value reads the blocks only where the mask is set -/

/-- The body's masked squared difference: the value the two lane sums add up. -/
def masked (i : grid0.Coords) (X0 X1 : Vec F S7816x128 .f32) : FVec F S7816x128 .f32 :=
  let arg0 : BitVec 32 := BitVec.ofNat 32 (i 0).val
  let arg1 : BitVec 32 := BitVec.ofNat 32 (i 1).val
  have v4 : FVec F S7816x128 .f32 := shapeCast S7816x128 X0 shapeCasts_S7816x128_S7816x128
  have v6 : FVec F S7816x128 .f32 := shapeCast S7816x128 X1 shapeCasts_S7816x128_S7816x128
  have v7 : FVec F S7816x128 .f32 := subf v4 v6
  have v8 : FVec F S7816x128 .f32 := mulf v7 v7
  let v9 : BitVec 32 := Scalar.muli arg0 20#32
  let v10 : BitVec 32 := Scalar.addi v9 arg1
  let v11 : BitVec 32 := Scalar.muli v10 7816#32
  have v12 : IVec S7816x128 32 := iota .tc S7816x128 32 [0] iota_S7816x128_d0_w32
  have v13 : IVec S7816x128 32 := broadcast S7816x128 v11
  have v14 : IVec S7816x128 32 := addi v13 v12
  have v15 : IVec S7816x128 32 := broadcast S7816x128 312500#32
  have v16 : IVec S7816x128 1 := cmpi .slt v14 v15
  have cst : F .f32 := Scalar.ofBits .f32 0x00000000#32
  have v17 : FVec F S7816x128 .f32 := broadcast S7816x128 cst
  select v16 v8 v17

/-- The rest of the payload over the masked value. -/
def payTail (v18 : FVec F S7816x128 .f32) (v23 : Vec F S8x128 .f32) : FVec F S8x128 .f32 :=
  have v19 : FVec F S7816 .f32 := multiReduction .add [1] S7816 v18 0x00000000#32 reduces_S7816x128_S7816 (.inl rfl) rfl
  have v20 : FVec F S7816x1 .f32 := shapeCast S7816x1 v19 shapeCasts_S7816_S7816x1
  have v21 : FVec F S1 .f32 := multiReduction .add [0] S1 v20 0x00000000#32 reduces_S7816x1_S1 (.inl rfl) rfl
  have v22 : FVec F S1x1 .f32 := shapeCast S1x1 v21 shapeCasts_S1_S1x1
  have v24 : FVec F S8x128 .f32 := shapeCast S8x128 v23 shapeCasts_S8x128_S8x128
  have v25 : FVec F S1x1 .f32 := shapeCast S1x1 v22 shapeCasts_S1x1_S1x1
  have v26 : FVec F S8x128 .f32 := broadcastTo S8x128 v25 broadcasts_S1x1_S8x128
  have v27 : FVec F S8x128 .f32 := addf v24 v26
  v27

theorem k0_pay2_eq (i : grid0.Coords) (X0 X1 : Vec F S7816x128 .f32) (v : Vec F S8x128 .f32) :
    k0_pay2 i X0 X1 v = payTail (masked i X0 X1) v := rfl

/-- The masked value at row `r`, lane `l`: the squared difference where the block's row is inside the array, the zero
    word's value elsewhere. -/
theorem masked_apply (t : Fin cfg0.N) (X0 X1 : Vec F S7816x128 .f32) (r : Fin 7816) (l : Fin 128) :
    masked (grid0.coords t) X0 X1 (ix2 r l)
      = if t.val * 7816 + r.val < 312500 then
          FloatOps.mulf (FloatOps.subf (X0 (ix2 r l)) (X1 (ix2 r l))) (FloatOps.subf (X0 (ix2 r l)) (X1 (ix2 r l)))
        else Scalar.ofBits .f32 0x00000000#32 := by
  unfold masked
  rw [shapeCast_self, shapeCast_self]
  show Scalar.select (IntOp.cmpi .slt (IntOp.addi _ (iota .tc S7816x128 32 [0] iota_S7816x128_d0_w32 (ix2 r l))) 312500#32) _ _ = _
  rw [iota_single_apply]
  show Scalar.select (IntOp.cmpi .slt (IntOp.addi (Scalar.muli (Scalar.addi (Scalar.muli
      (BitVec.ofNat 32 (grid0.coords t 0).val) 20#32) (BitVec.ofNat 32 (grid0.coords t 1).val)) 7816#32)
      (BitVec.ofNat 32 r.val)) 312500#32) _ _ = _
  by_cases h : t.val * 7816 + r.val < 312500
  · rw [(mask_iff t r).mpr h, select_one, if_pos h]; rfl
  · rw [eq_zero_of_ne_one (fun h' => h ((mask_iff t r).mp h')), select_zero, if_neg h]; rfl

theorem pay2_fill (t : Fin cfg0.N) (d0 d0' d1 d1' : S7816x128.Idx → Elt F .f32)
    (g0 : (win0_0.xblock (grid0.coords t)).Idx → Elt F .f32) (g1 : (win0_1.xblock (grid0.coords t)).Idx → Elt F .f32)
    (v : Vec F S8x128 .f32) :
    k0_pay2 (grid0.coords t) (win0_0.fill (grid0.coords t) d0 g0) (win0_1.fill (grid0.coords t) d1 g1) v
      = k0_pay2 (grid0.coords t) (win0_0.fill (grid0.coords t) d0' g0) (win0_1.fill (grid0.coords t) d1' g1) v := by
  rw [k0_pay2_eq, k0_pay2_eq]
  congr 1
  funext j
  obtain ⟨r, l, rfl⟩ : ∃ (r : Fin 7816) (l : Fin 128), j = ix2 r l := ⟨j 0, j 1, eq_ix2 j⟩
  rw [masked_apply, masked_apply]
  by_cases h : t.val * 7816 + r.val < 312500
  · rw [if_pos h, if_pos h]
    have e0 : ∀ d : S7816x128.Idx → Elt F .f32, win0_0.fill (grid0.coords t) d g0 (ix2 r l)
        = g0 fun a => ⟨(ix2 r l a).val, (win0_0.moved_iff (grid0.coords t) (ix2 r l)).mp ((moved_iff_row t (ix2 r l)).mpr h) a⟩ := by
      intro d; unfold Pipeline.Window.fill; rw [dif_pos ((moved_iff_row t (ix2 r l)).mpr h)]
    have e1 : ∀ d : S7816x128.Idx → Elt F .f32, win0_1.fill (grid0.coords t) d g1 (ix2 r l)
        = g1 fun a => ⟨(ix2 r l a).val, (win0_1.moved_iff (grid0.coords t) (ix2 r l)).mp ((moved_iff_row1 t (ix2 r l)).mpr h) a⟩ := by
      intro d; unfold Pipeline.Window.fill; rw [dif_pos ((moved_iff_row1 t (ix2 r l)).mpr h)]
    rw [e0 d0, e0 d0', e1 d1, e1 d1']
  · rw [if_neg h, if_neg h]

end Cert.Kernel.Mask

end
-- ==== Proof.BitsBody.lean ====
/-
  The frame of the squared-difference kernel: the body's run, the accumulation, and the run of the whole program.

  The grid has 40 points in two halves of 20. At each point the body loads the two operands' blocks of 7816 rows, squares
  their difference, replaces by zero the rows that fall past the 312500-row array (only the last block has such rows),
  sums everything, and adds the sum, spread over the 8 × 128 result block, to what the block held; at the first point of
  each half it first zeroes the block. The result block is written back after the last point of each half.

  The operands' last block overhangs the array: on those rows the staging buffer holds values nothing names, and the body
  obligation states the input buffers on the rows inside the array only. The mask makes the accumulated value blind to
  the other rows, so what the result's buffer holds after each point is ONE function of the argument arrays (`acc`),
  stated over the blocks filled out with zeros.
-/
import proofs.«130651_j28741921145432_2_alg».proof.Proof.Gen.Kernel.Launch
import proofs.«130651_j28741921145432_2_alg».proof.Proof.Gen.Kernel.Skeleton
import proofs.«130651_j28741921145432_2_alg».proof.Proof.Gen.Kernel.Points
import proofs.«130651_j28741921145432_2_alg».proof.Proof.Gen.Kernel.Frame
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic
import proofs.«130651_j28741921145432_2_alg».proof.Proof.BitsMask

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the body's one branch, from the grid coordinates: the second coordinate is zero. -/
abbrev cond0 (i : grid0.Coords) : Prop :=
  (Scalar.cmpi .ne (Scalar.extui (Scalar.cmpi .eq (BitVec.ofNat 32 (i 1).val) 0#32)) 0#32) = 1#1

/-- It holds exactly at the first point of each half of the grid. -/
theorem hcond0 : ∀ t : Fin cfg0.N, cond0 (grid0.coords t) ↔ t.val % 20 = 0 :=
  (by decide +kernel : ∀ t : Fin grid0.N, cond0 (grid0.coords t) ↔ t.val % 20 = 0)

theorem hz2 : (![0, 0] : Fin 2 → Nat) = fun _ => 0 := funext fun a => by fin_cases a <;> rfl

set_option maxHeartbeats 1000000 in
/-- The body where the branch is taken: the accumulator's buffer, whatever it held, is zeroed, and ends at the
    point's payload over that zero block; the two input buffers are only read. -/
theorem runA (c : Dev nD) (i : grid0.Coords) (arg2 : Memref sig .tc .vmem S7816x128 .f32) (harg2 : arg2.IsWhole)
    (arg3 : Memref sig .tc .vmem S7816x128 .f32) (harg3 : arg3.IsWhole) (arg4 : Memref sig .tc .vmem S8x128 .f32) (harg4 : arg4.IsWhole)
    (hc0 : cond0 i) (X0 X1 : Vec F S7816x128 .f32) (Xo : Vec F S8x128 .f32) (E : Set ℕ) (K : PUnit → sProp 𝕄) :
    iprop(owns (c : Thread nD τ) arg2 fullShare X0 ∗ owns (c : Thread nD τ) arg3 fullShare X1 ∗ owns (c : Thread nD τ) arg4 fullShare Xo
        ∗ (iprop(owns (c : Thread nD τ) arg2 fullShare X0 ∗ owns (c : Thread nD τ) arg3 fullShare X1
            ∗ owns (c : Thread nD τ) arg4 fullShare (k0_pay2 i X0 X1 (k0_pay1 (F := F)))) -∗ K ⟨⟩))
      ⊢ wp frame (wpE (defs₀ (F := F)) Variants.none c none) E (cc0__mse_kernel i arg2 harg2 arg3 harg3 arg4 harg4) K := by
  simp only [cc0__mse_kernel_eq_skeleton]; unfold cc0__mse_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc0)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  sl_unfold_run_names
  rw [View.read_writes_eq_canon _ _ _ (fun y => ⟨_, List.mem_cons_self, View.mem_set_unit_zero hz2 inb_S8x128_S8x128_0_0 y⟩),
    View.canon_cons_unit_zero hz2]
  simp only [View.readAt_eq_ld, hf0, hf1, View.ld_unit_zero (S := S7816x128) hz2]
  exact congrArg (k0_pay2 i X0 X1) (View.readCov_unit_zero (S := S8x128) arg4.view hz2 inb_S8x128_S8x128_0_0 _)

set_option maxHeartbeats 1000000 in
/-- The body where the branch is not taken: the accumulator's buffer ends at the point's payload over what it held. -/
theorem runB (c : Dev nD) (i : grid0.Coords) (arg2 : Memref sig .tc .vmem S7816x128 .f32) (harg2 : arg2.IsWhole)
    (arg3 : Memref sig .tc .vmem S7816x128 .f32) (harg3 : arg3.IsWhole) (arg4 : Memref sig .tc .vmem S8x128 .f32) (harg4 : arg4.IsWhole)
    (hc0 : ¬cond0 i) (X0 X1 : Vec F S7816x128 .f32) (Xo : Vec F S8x128 .f32) (E : Set ℕ) (K : PUnit → sProp 𝕄) :
    iprop(owns (c : Thread nD τ) arg2 fullShare X0 ∗ owns (c : Thread nD τ) arg3 fullShare X1 ∗ owns (c : Thread nD τ) arg4 fullShare Xo
        ∗ (iprop(owns (c : Thread nD τ) arg2 fullShare X0 ∗ owns (c : Thread nD τ) arg3 fullShare X1
            ∗ owns (c : Thread nD τ) arg4 fullShare (k0_pay2 i X0 X1 Xo)) -∗ K ⟨⟩))
      ⊢ wp frame (wpE (defs₀ (F := F)) Variants.none c none) E (cc0__mse_kernel i arg2 harg2 arg3 harg3 arg4 harg4) K := by
  simp only [cc0__mse_kernel_eq_skeleton]; unfold cc0__mse_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc0)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [View.read_writes_eq_canon _ _ _ (fun y => ⟨_, List.mem_singleton_self _, View.mem_set_unit_zero hz2 inb_S8x128_S8x128_0_0 y⟩),
    View.canon_unit_zero hz2]
  simp only [View.readAt_eq_ld, hf0, hf1, hf2, View.ld_unit_zero (S := S7816x128) hz2, View.ld_unit_zero (S := S8x128) hz2]

variable (m : (ℓ : Loc nD τ sig) → Buf (Elt F) ℓ) (ρ : Dev nD → PrngReg)

/-! ## What the staging buffers hold after the body -/

/-- Each window's current staging memref at point `t`, and its wholeness. -/
abbrev ms0_0 (t : Fin cfg0.N) : Memref sig .tc .vmem S7816x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7816x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

/-- The zero word, the filler this proof picks for the rows of a block past the array's end. -/
abbrev zfill : S7816x128.Idx → Elt F .f32 := fun _ => Scalar.ofBits .f32 0x00000000#32

/-- The first operand's block at point `t`: its rows inside the array, the rows past the array's end (the last block
    only) filled with zeros. Those rows are masked in the body, so the filler is never seen. -/
def zblk0 (c : Dev nD) (t : Fin cfg0.N) : S7816x128.Idx → Elt F .f32 :=
  win0_0.fill (grid0.coords t) zfill (iblk m c 0 t)
/-- The second operand's likewise. -/
def zblk1 (c : Dev nD) (t : Fin cfg0.N) : S7816x128.Idx → Elt F .f32 :=
  win0_1.fill (grid0.coords t) zfill (iblk m c 1 t)

/-- One point's step of the accumulation: the payload over the point's two blocks and what the accumulator held. -/
def step (c : Dev nD) (t : Fin cfg0.N) (v : Vec F S8x128 .f32) : Vec F S8x128 .f32 :=
  k0_pay2 (grid0.coords t) (zblk0 m c t) (zblk1 m c t) v

/-- THE ACCUMULATION. What the result's staging buffer holds after the body at position `n`: at the first point of
    each half of the grid the step over the zero block, at every other point the step over what the point before left. -/
def acc (c : Dev nD) : (n : ℕ) → n < cfg0.N → Vec F S8x128 .f32
  | 0, hn => step m c ⟨0, hn⟩ (k0_pay1 (F := F))
  | n + 1, hn =>
    if (n + 1) % 20 = 0 then step m c ⟨n + 1, hn⟩ (k0_pay1 (F := F))
    else step m c ⟨n + 1, hn⟩ (acc c n (Nat.lt_of_succ_lt hn))

theorem acc_A (c : Dev nD) (t : Fin cfg0.N) (h0 : t.val % 20 = 0) :
    acc m c t.val t.isLt = step m c t (k0_pay1 (F := F)) := by
  obtain ⟨n, hn⟩ := t
  cases n with
  | zero => rfl
  | succ n => exact (if_pos h0).trans rfl

theorem acc_B (c : Dev nD) (t : Fin cfg0.N) (h0 : ¬t.val % 20 = 0) :
    acc m c t.val t.isLt = step m c t (acc m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the one pipeline on core `c`: the arrays as the region finds them; after the body at point `t`
    the two input buffers at their blocks (stated on the rows inside the array only: the windows are loose) and the
    result's at the accumulation; the invariant is the core's scoped rest and generator register, which the body never touches;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => zblk0 m c t
    | ⟨1, _⟩ => zblk1 m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = zblk0 m c t := by dsimp only [dats]
theorem after0_1 (c : Dev nD) (t : Fin cfg0.N) : (dats m 0 c).after 1 t = zblk1 m c t := by dsimp only [dats]
theorem after0_2 (c : Dev nD) (t : Fin cfg0.N) : (dats m 0 c).after 2 t = acc m c t.val t.isLt := by dsimp only [dats]

/-- An input's buffer, fetched at every point, holds its block on the rows inside the array and `d` past them. -/
theorem before0_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]
theorem before0_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- At the first point of each half the result's buffer holds anything: it is fresh, or was just written back. -/
theorem before0_2_A (c : Dev nD) (t : Fin cfg0.N) (h0 : t.val % 20 = 0) (d) : (dats m 0 c).before 2 t d = d := by
  have hN : t.val < 40 := lt_of_lt_of_eq t.isLt (show cfg0.N = 40 from N_0)
  refine Dat.before_out_reset _ 2 rfl t ?_ d
  by_cases ht : t.val = 0
  · exact .inl ht
  · exact .inr ⟨ht, (flush0_2 _).mpr (by dsimp only; omega)⟩

/-- At every other point it holds what the body left at the point before. -/
theorem before0_2_B (c : Dev nD) (t : Fin cfg0.N) (h0 : ¬t.val % 20 = 0) (d) :
    (dats m 0 c).before 2 t d = acc m c (t.val - 1) (Nat.lt_of_le_of_lt (Nat.sub_le _ _) t.isLt) := by
  have hN : t.val < 40 := lt_of_lt_of_eq t.isLt (show cfg0.N = 40 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

/-- What the body is called with at point `t`: each window's current buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns: the two input buffers stated on the rows inside the array, the result's exactly. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ owns (c : Thread nD τ) (ms0_2 t) fullShare ((dats m 0 c).after 2 t))

set_option maxHeartbeats 800000 in
/-- The body at any point. The input buffers arrive holding their blocks filled out past the array's end with
    anything; the mask makes the payload blind to that filler, so the result's buffer ends at the accumulation,
    which is stated over the zero-filled blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hx0 : win0_0.cut (grid0.coords t) (zblk0 m c t) = iblk m c 0 t := win0_0.cut_fill _ _ _
  have hx1 : win0_1.cut (grid0.coords t) (zblk1 m c t) = iblk m c 1 t := win0_1.cut_fill _ _ _
  rw [hx0, hx1]
  by_cases h0 : t.val % 20 = 0
  · rw [acc_A m c t h0]
    unfold step zblk0 zblk1
    simp only [before0_2_A m c t h0]
    iintro ⟨HΦ, Ho, ⟨%d0, H0⟩, ⟨%d1, H1⟩, ⟨%d2, H2⟩⟩
    iapply (runA c (grid0.coords t) _ _ _ _ _ _ ((hcond0 t).mpr h0) (win0_0.fill (grid0.coords t) d0 (iblk m c 0 t))
      (win0_1.fill (grid0.coords t) d1 (iblk m c 1 t)) d2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexists d0; iexact H0
    isplitl [H1]; · iexists d1; iexact H1
    rw [Cert.Kernel.Mask.pay2_fill t zfill d0 zfill d1 (iblk m c 0 t) (iblk m c 1 t) (k0_pay1 (F := F))]
    iexact H2
  · rw [acc_B m c t h0]
    unfold step zblk0 zblk1
    simp only [before0_2_B m c t h0]
    iintro ⟨HΦ, Ho, ⟨%d0, H0⟩, ⟨%d1, H1⟩, ⟨%d2, H2⟩⟩
    iapply (runB c (grid0.coords t) _ _ _ _ _ _ (fun h => h0 ((hcond0 t).mp h)) (win0_0.fill (grid0.coords t) d0 (iblk m c 0 t))
      (win0_1.fill (grid0.coords t) d1 (iblk m c 1 t)) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexists d0; iexact H0
    isplitl [H1]; · iexists d1; iexact H1
    rw [Cert.Kernel.Mask.pay2_fill t zfill d0 zfill d1 (iblk m c 0 t) (iblk m c 1 t) (acc m c (t.val - 1) (Nat.lt_of_le_of_lt (Nat.sub_le _ _) t.isLt))]
    iexact H2

/-- The library's body obligation, at every point (its loose form: the input windows' blocks overhang their arrays). -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline ends at what the proof data computes and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealMask.lean ====
/-
  The row mask of the squared-difference kernel, and what the kernel body's accumulated value depends on.

  The grid has 40 points; point `t` works on rows `t * 7816 … t * 7816 + 7815` of a 312500-row array, and the last
  block overhangs the array's end by 140 rows.  The body compares `t * 7816 + r` with 312500 in 32-bit signed words
  and keeps the squared difference of the two blocks only on the rows below 312500, taking the zero word's value on the
  others.  Here: a block row is moved by the transfer exactly when it is inside the array; the body's comparison says
  the same; so the accumulated value reads the two blocks only on rows that the transfers move, and does not depend on
  what the staging buffers held before on the other rows.  Nothing here depends on the float instance.
-/
import proofs.«130651_j28741921145432_2_alg».proof.Proof.Gen.KernelIdeal.Skeleton
import Idealize.ShloMosaic.Lib.ValueIdx
import Idealize.ShloMosaic.Lib.Pipeline.Value

noncomputable section

namespace Cert.KernelIdeal.Mask

open Cert.KernelIdeal Cert.KernelIdeal.Gen Idealize.ShloMosaic Idealize.ShloMosaic.ValueIdx

variable {F : FTy → Type} [FloatOps F]

/-! ## The grid and the index maps in closed form -/

/-- The grid has 40 points. -/
theorem N_eq : grid0.N = 40 := by decide

/-- At point `t` the first operand's block index is `(t, 0)`. -/
theorem index0_closed : ∀ t : Fin grid0.N,
    cc0_transform_0 (grid0.coords t) 0 = t.val ∧ cc0_transform_0 (grid0.coords t) 1 = 0 := by decide +kernel

/-- At point `t` the second operand's block index is `(t, 0)`. -/
theorem index1_closed : ∀ t : Fin grid0.N,
    cc0_transform_1 (grid0.coords t) 0 = t.val ∧ cc0_transform_1 (grid0.coords t) 1 = 0 := by decide +kernel

/-- Row `r` of block `n` is below the cut at the array's end exactly when row `n * 7816 + r` is inside the array. -/
theorem extent_row (n r : Nat) (hn : n < 40) (hr : r < 7816) :
    r < (Pipeline.Clip.of n 7816 312500).extent 7816 ↔ n * 7816 + r < 312500 := by
  unfold Pipeline.Clip.of
  split
  · next h => show r < 7816 ↔ _; omega
  · next h => show r < 312500 - n * 7816 ↔ _; omega

/-! ## Which block rows a transfer moves -/

/-- The first operand's transfer at point `t` moves block index `j` exactly when its row is inside the array. -/
theorem moved_iff_row (t : Fin cfg0.N) (j : S7816x128.Idx) :
    win0_0.moved (grid0.coords t) j = true ↔ t.val * 7816 + (j 0).val < 312500 := by
  rw [Pipeline.Window.moved_iff]
  obtain ⟨h0, h1⟩ := index0_closed t
  have ht : t.val < 40 := lt_of_lt_of_eq t.isLt N_eq
  have hj0 : (j 0).val < 7816 := idx2_lt0 j
  have hj1 : (j 1).val < 128 := idx2_lt1 j
  have x0 : win0_0.xsize (grid0.coords t) 0 = (Pipeline.Clip.of t.val 7816 312500).extent 7816 := by
    show (Pipeline.Clip.of (cc0_transform_0 (grid0.coords t) 0) 7816 312500).extent 7816 = _
    rw [h0]
  have x1 : win0_0.xsize (grid0.coords t) 1 = 128 := by
    show (Pipeline.Clip.of (cc0_transform_0 (grid0.coords t) 1) 128 128).extent 128 = _
    rw [h1]; rfl
  constructor
  · intro h
    have h' := h 0
    rw [x0] at h'
    exact (extent_row t.val (j 0).val ht hj0).mp h'
  · intro h a
    match a with
    | ⟨0, _⟩ =>
      show (j 0).val < win0_0.xsize (grid0.coords t) 0
      rw [x0]; exact (extent_row t.val (j 0).val ht hj0).mpr h
    | ⟨1, _⟩ =>
      show (j 1).val < win0_0.xsize (grid0.coords t) 1
      rw [x1]; exact hj1

/-- The second operand's transfer likewise. -/
theorem moved_iff_row1 (t : Fin cfg0.N) (j : S7816x128.Idx) :
    win0_1.moved (grid0.coords t) j = true ↔ t.val * 7816 + (j 0).val < 312500 := by
  rw [Pipeline.Window.moved_iff]
  obtain ⟨h0, h1⟩ := index1_closed t
  have ht : t.val < 40 := lt_of_lt_of_eq t.isLt N_eq
  have hj0 : (j 0).val < 7816 := idx2_lt0 j
  have hj1 : (j 1).val < 128 := idx2_lt1 j
  have x0 : win0_1.xsize (grid0.coords t) 0 = (Pipeline.Clip.of t.val 7816 312500).extent 7816 := by
    show (Pipeline.Clip.of (cc0_transform_1 (grid0.coords t) 0) 7816 312500).extent 7816 = _
    rw [h0]
  have x1 : win0_1.xsize (grid0.coords t) 1 = 128 := by
    show (Pipeline.Clip.of (cc0_transform_1 (grid0.coords t) 1) 128 128).extent 128 = _
    rw [h1]; rfl
  constructor
  · intro h
    have h' := h 0
    rw [x0] at h'
    exact (extent_row t.val (j 0).val ht hj0).mp h'
  · intro h a
    match a with
    | ⟨0, _⟩ =>
      show (j 0).val < win0_1.xsize (grid0.coords t) 0
      rw [x0]; exact (extent_row t.val (j 0).val ht hj0).mpr h
    | ⟨1, _⟩ =>
      show (j 1).val < win0_1.xsize (grid0.coords t) 1
      rw [x1]; exact hj1

/-! ## The body's comparison -/

/-- The body's integer chain — the block's first row in the array — is `t * 7816` at point `t`. -/
theorem row0_closed : ∀ t : Fin grid0.N,
    Scalar.muli (Scalar.addi (Scalar.muli (BitVec.ofNat 32 (grid0.coords t 0).val) 20#32)
      (BitVec.ofNat 32 (grid0.coords t 1).val)) 7816#32 = BitVec.ofNat 32 (t.val * 7816) := by decide +kernel

/-- For a natural number far below `2 ^ 31` the signed 32-bit comparison with 312500 is the comparison of naturals. -/
theorem slt_small (n : Nat) (hn : n < 320000) :
    IntOp.cmpi .slt (BitVec.ofNat 32 n) 312500#32 = 1#1 ↔ n < 312500 := by
  unfold IntOp.cmpi
  show BitVec.ofBool ((BitVec.ofNat 32 n).slt 312500#32) = 1#1 ↔ _
  have hto : (BitVec.ofNat 32 n).toInt = (n : Int) := by
    rw [BitVec.toInt_eq_toNat_cond, BitVec.toNat_ofNat]
    have hm : n % 2 ^ 32 = n := Nat.mod_eq_of_lt (by omega)
    rw [hm]
    split
    · rfl
    · next h => exact absurd (by omega : 2 * n < 2 ^ 32) h
  have h2 : (312500#32 : BitVec 32).toInt = 312500 := by decide
  rw [BitVec.slt, hto, h2]
  by_cases h : n < 312500
  · have hd : decide ((n : Int) < 312500) = true := decide_eq_true (by omega)
    rw [hd]; exact ⟨fun _ => h, fun _ => rfl⟩
  · have hd : decide ((n : Int) < 312500) = false := decide_eq_false (by omega)
    rw [hd]; exact ⟨fun h' => absurd h' (by decide), fun h' => absurd h' h⟩

/-- The body's mask bit at row `r` of the block at point `t` is set exactly when row `t * 7816 + r` is inside the
    array. -/
theorem mask_iff (t : Fin cfg0.N) (r : Fin 7816) :
    IntOp.cmpi .slt (IntOp.addi (Scalar.muli (Scalar.addi (Scalar.muli (BitVec.ofNat 32 (grid0.coords t 0).val) 20#32)
      (BitVec.ofNat 32 (grid0.coords t 1).val)) 7816#32) (BitVec.ofNat 32 r.val)) 312500#32 = 1#1
      ↔ t.val * 7816 + r.val < 312500 := by
  have ht : t.val < 40 := lt_of_lt_of_eq t.isLt N_eq
  have hr : r.val < 7816 := r.isLt
  rw [row0_closed t]
  have : IntOp.addi (BitVec.ofNat 32 (t.val * 7816)) (BitVec.ofNat 32 r.val) = BitVec.ofNat 32 (t.val * 7816 + r.val) := by
    unfold IntOp.addi; exact (BitVec.ofNat_add _ _).symm
  rw [this]
  exact slt_small _ (by omega)

/-! ## The accumulated value reads the blocks only where the mask is set -/

/-- The body's masked squared difference: the value the two lane sums add up. -/
def masked (i : grid0.Coords) (X0 X1 : Vec F S7816x128 .f32) : FVec F S7816x128 .f32 :=
  let arg0 : BitVec 32 := BitVec.ofNat 32 (i 0).val
  let arg1 : BitVec 32 := BitVec.ofNat 32 (i 1).val
  have v4 : FVec F S7816x128 .f32 := shapeCast S7816x128 X0 shapeCasts_S7816x128_S7816x128
  have v6 : FVec F S7816x128 .f32 := shapeCast S7816x128 X1 shapeCasts_S7816x128_S7816x128
  have v7 : FVec F S7816x128 .f32 := subf v4 v6
  have v8 : FVec F S7816x128 .f32 := mulf v7 v7
  let v9 : BitVec 32 := Scalar.muli arg0 20#32
  let v10 : BitVec 32 := Scalar.addi v9 arg1
  let v11 : BitVec 32 := Scalar.muli v10 7816#32
  have v12 : IVec S7816x128 32 := iota .tc S7816x128 32 [0] iota_S7816x128_d0_w32
  have v13 : IVec S7816x128 32 := broadcast S7816x128 v11
  have v14 : IVec S7816x128 32 := addi v13 v12
  have v15 : IVec S7816x128 32 := broadcast S7816x128 312500#32
  have v16 : IVec S7816x128 1 := cmpi .slt v14 v15
  have cst : F .f32 := Scalar.ofBits .f32 0x00000000#32
  have v17 : FVec F S7816x128 .f32 := broadcast S7816x128 cst
  select v16 v8 v17

/-- The rest of the payload over the masked value. -/
def payTail (v18 : FVec F S7816x128 .f32) (v23 : Vec F S8x128 .f32) : FVec F S8x128 .f32 :=
  have v19 : FVec F S7816 .f32 := multiReduction .add [1] S7816 v18 0x00000000#32 reduces_S7816x128_S7816 (.inl rfl) rfl
  have v20 : FVec F S7816x1 .f32 := shapeCast S7816x1 v19 shapeCasts_S7816_S7816x1
  have v21 : FVec F S1 .f32 := multiReduction .add [0] S1 v20 0x00000000#32 reduces_S7816x1_S1 (.inl rfl) rfl
  have v22 : FVec F S1x1 .f32 := shapeCast S1x1 v21 shapeCasts_S1_S1x1
  have v24 : FVec F S8x128 .f32 := shapeCast S8x128 v23 shapeCasts_S8x128_S8x128
  have v25 : FVec F S1x1 .f32 := shapeCast S1x1 v22 shapeCasts_S1x1_S1x1
  have v26 : FVec F S8x128 .f32 := broadcastTo S8x128 v25 broadcasts_S1x1_S8x128
  have v27 : FVec F S8x128 .f32 := addf v24 v26
  v27

theorem k0_pay2_eq (i : grid0.Coords) (X0 X1 : Vec F S7816x128 .f32) (v : Vec F S8x128 .f32) :
    k0_pay2 i X0 X1 v = payTail (masked i X0 X1) v := rfl

/-- The masked value at row `r`, lane `l`: the squared difference where the block's row is inside the array, the zero
    word's value elsewhere. -/
theorem masked_apply (t : Fin cfg0.N) (X0 X1 : Vec F S7816x128 .f32) (r : Fin 7816) (l : Fin 128) :
    masked (grid0.coords t) X0 X1 (ix2 r l)
      = if t.val * 7816 + r.val < 312500 then
          FloatOps.mulf (FloatOps.subf (X0 (ix2 r l)) (X1 (ix2 r l))) (FloatOps.subf (X0 (ix2 r l)) (X1 (ix2 r l)))
        else Scalar.ofBits .f32 0x00000000#32 := by
  unfold masked
  rw [shapeCast_self, shapeCast_self]
  show Scalar.select (IntOp.cmpi .slt (IntOp.addi _ (iota .tc S7816x128 32 [0] iota_S7816x128_d0_w32 (ix2 r l))) 312500#32) _ _ = _
  rw [iota_single_apply]
  show Scalar.select (IntOp.cmpi .slt (IntOp.addi (Scalar.muli (Scalar.addi (Scalar.muli
      (BitVec.ofNat 32 (grid0.coords t 0).val) 20#32) (BitVec.ofNat 32 (grid0.coords t 1).val)) 7816#32)
      (BitVec.ofNat 32 r.val)) 312500#32) _ _ = _
  by_cases h : t.val * 7816 + r.val < 312500
  · rw [(mask_iff t r).mpr h, select_one, if_pos h]; rfl
  · rw [eq_zero_of_ne_one (fun h' => h ((mask_iff t r).mp h')), select_zero, if_neg h]; rfl

theorem pay2_fill (t : Fin cfg0.N) (d0 d0' d1 d1' : S7816x128.Idx → Elt F .f32)
    (g0 : (win0_0.xblock (grid0.coords t)).Idx → Elt F .f32) (g1 : (win0_1.xblock (grid0.coords t)).Idx → Elt F .f32)
    (v : Vec F S8x128 .f32) :
    k0_pay2 (grid0.coords t) (win0_0.fill (grid0.coords t) d0 g0) (win0_1.fill (grid0.coords t) d1 g1) v
      = k0_pay2 (grid0.coords t) (win0_0.fill (grid0.coords t) d0' g0) (win0_1.fill (grid0.coords t) d1' g1) v := by
  rw [k0_pay2_eq, k0_pay2_eq]
  congr 1
  funext j
  obtain ⟨r, l, rfl⟩ : ∃ (r : Fin 7816) (l : Fin 128), j = ix2 r l := ⟨j 0, j 1, eq_ix2 j⟩
  rw [masked_apply, masked_apply]
  by_cases h : t.val * 7816 + r.val < 312500
  · rw [if_pos h, if_pos h]
    have e0 : ∀ d : S7816x128.Idx → Elt F .f32, win0_0.fill (grid0.coords t) d g0 (ix2 r l)
        = g0 fun a => ⟨(ix2 r l a).val, (win0_0.moved_iff (grid0.coords t) (ix2 r l)).mp ((moved_iff_row t (ix2 r l)).mpr h) a⟩ := by
      intro d; unfold Pipeline.Window.fill; rw [dif_pos ((moved_iff_row t (ix2 r l)).mpr h)]
    have e1 : ∀ d : S7816x128.Idx → Elt F .f32, win0_1.fill (grid0.coords t) d g1 (ix2 r l)
        = g1 fun a => ⟨(ix2 r l a).val, (win0_1.moved_iff (grid0.coords t) (ix2 r l)).mp ((moved_iff_row1 t (ix2 r l)).mpr h) a⟩ := by
      intro d; unfold Pipeline.Window.fill; rw [dif_pos ((moved_iff_row1 t (ix2 r l)).mpr h)]
    rw [e0 d0, e0 d0', e1 d1, e1 d1']
  · rw [if_neg h, if_neg h]

end Cert.KernelIdeal.Mask

end
-- ==== Proof.IdealBody.lean ====
/-
  The frame of the squared-difference kernel: the body's run, the accumulation, and the run of the whole program.

  The grid has 40 points in two halves of 20. At each point the body loads the two operands' blocks of 7816 rows, squares
  their difference, replaces by zero the rows that fall past the 312500-row array (only the last block has such rows),
  sums everything, and adds the sum, spread over the 8 × 128 result block, to what the block held; at the first point of
  each half it first zeroes the block. The result block is written back after the last point of each half.

  The operands' last block overhangs the array: on those rows the staging buffer holds values nothing names, and the body
  obligation states the input buffers on the rows inside the array only. The mask makes the accumulated value blind to
  the other rows, so what the result's buffer holds after each point is ONE function of the argument arrays (`acc`),
  stated over the blocks filled out with zeros.
-/
import proofs.«130651_j28741921145432_2_alg».proof.Proof.Gen.KernelIdeal.Launch
import proofs.«130651_j28741921145432_2_alg».proof.Proof.Gen.KernelIdeal.Skeleton
import proofs.«130651_j28741921145432_2_alg».proof.Proof.Gen.KernelIdeal.Points
import proofs.«130651_j28741921145432_2_alg».proof.Proof.Gen.KernelIdeal.Frame
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic
import proofs.«130651_j28741921145432_2_alg».proof.Proof.IdealMask

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the body's one branch, from the grid coordinates: the second coordinate is zero. -/
abbrev cond0 (i : grid0.Coords) : Prop :=
  (Scalar.cmpi .ne (Scalar.extui (Scalar.cmpi .eq (BitVec.ofNat 32 (i 1).val) 0#32)) 0#32) = 1#1

/-- It holds exactly at the first point of each half of the grid. -/
theorem hcond0 : ∀ t : Fin cfg0.N, cond0 (grid0.coords t) ↔ t.val % 20 = 0 :=
  (by decide +kernel : ∀ t : Fin grid0.N, cond0 (grid0.coords t) ↔ t.val % 20 = 0)

theorem hz2 : (![0, 0] : Fin 2 → Nat) = fun _ => 0 := funext fun a => by fin_cases a <;> rfl

set_option maxHeartbeats 1000000 in
/-- The body where the branch is taken: the accumulator's buffer, whatever it held, is zeroed, and ends at the
    point's payload over that zero block; the two input buffers are only read. -/
theorem runA (c : Dev nD) (i : grid0.Coords) (arg2 : Memref sig .tc .vmem S7816x128 .f32) (harg2 : arg2.IsWhole)
    (arg3 : Memref sig .tc .vmem S7816x128 .f32) (harg3 : arg3.IsWhole) (arg4 : Memref sig .tc .vmem S8x128 .f32) (harg4 : arg4.IsWhole)
    (hc0 : cond0 i) (X0 X1 : Vec F S7816x128 .f32) (Xo : Vec F S8x128 .f32) (E : Set ℕ) (K : PUnit → sProp 𝕄) :
    iprop(owns (c : Thread nD τ) arg2 fullShare X0 ∗ owns (c : Thread nD τ) arg3 fullShare X1 ∗ owns (c : Thread nD τ) arg4 fullShare Xo
        ∗ (iprop(owns (c : Thread nD τ) arg2 fullShare X0 ∗ owns (c : Thread nD τ) arg3 fullShare X1
            ∗ owns (c : Thread nD τ) arg4 fullShare (k0_pay2 i X0 X1 (k0_pay1 (F := F)))) -∗ K ⟨⟩))
      ⊢ wp frame (wpE (defs₀ (F := F)) Variants.none c none) E (cc0__mse_kernel i arg2 harg2 arg3 harg3 arg4 harg4) K := by
  simp only [cc0__mse_kernel_eq_skeleton]; unfold cc0__mse_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc0)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  sl_unfold_run_names
  rw [View.read_writes_eq_canon _ _ _ (fun y => ⟨_, List.mem_cons_self, View.mem_set_unit_zero hz2 inb_S8x128_S8x128_0_0 y⟩),
    View.canon_cons_unit_zero hz2]
  simp only [View.readAt_eq_ld, hf0, hf1, View.ld_unit_zero (S := S7816x128) hz2]
  exact congrArg (k0_pay2 i X0 X1) (View.readCov_unit_zero (S := S8x128) arg4.view hz2 inb_S8x128_S8x128_0_0 _)

set_option maxHeartbeats 1000000 in
/-- The body where the branch is not taken: the accumulator's buffer ends at the point's payload over what it held. -/
theorem runB (c : Dev nD) (i : grid0.Coords) (arg2 : Memref sig .tc .vmem S7816x128 .f32) (harg2 : arg2.IsWhole)
    (arg3 : Memref sig .tc .vmem S7816x128 .f32) (harg3 : arg3.IsWhole) (arg4 : Memref sig .tc .vmem S8x128 .f32) (harg4 : arg4.IsWhole)
    (hc0 : ¬cond0 i) (X0 X1 : Vec F S7816x128 .f32) (Xo : Vec F S8x128 .f32) (E : Set ℕ) (K : PUnit → sProp 𝕄) :
    iprop(owns (c : Thread nD τ) arg2 fullShare X0 ∗ owns (c : Thread nD τ) arg3 fullShare X1 ∗ owns (c : Thread nD τ) arg4 fullShare Xo
        ∗ (iprop(owns (c : Thread nD τ) arg2 fullShare X0 ∗ owns (c : Thread nD τ) arg3 fullShare X1
            ∗ owns (c : Thread nD τ) arg4 fullShare (k0_pay2 i X0 X1 Xo)) -∗ K ⟨⟩))
      ⊢ wp frame (wpE (defs₀ (F := F)) Variants.none c none) E (cc0__mse_kernel i arg2 harg2 arg3 harg3 arg4 harg4) K := by
  simp only [cc0__mse_kernel_eq_skeleton]; unfold cc0__mse_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc0)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [View.read_writes_eq_canon _ _ _ (fun y => ⟨_, List.mem_singleton_self _, View.mem_set_unit_zero hz2 inb_S8x128_S8x128_0_0 y⟩),
    View.canon_unit_zero hz2]
  simp only [View.readAt_eq_ld, hf0, hf1, hf2, View.ld_unit_zero (S := S7816x128) hz2, View.ld_unit_zero (S := S8x128) hz2]

variable (m : (ℓ : Loc nD τ sig) → Buf (Elt F) ℓ) (ρ : Dev nD → PrngReg)

/-! ## What the staging buffers hold after the body -/

/-- Each window's current staging memref at point `t`, and its wholeness. -/
abbrev ms0_0 (t : Fin cfg0.N) : Memref sig .tc .vmem S7816x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7816x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

/-- The zero word, the filler this proof picks for the rows of a block past the array's end. -/
abbrev zfill : S7816x128.Idx → Elt F .f32 := fun _ => Scalar.ofBits .f32 0x00000000#32

/-- The first operand's block at point `t`: its rows inside the array, the rows past the array's end (the last block
    only) filled with zeros. Those rows are masked in the body, so the filler is never seen. -/
def zblk0 (c : Dev nD) (t : Fin cfg0.N) : S7816x128.Idx → Elt F .f32 :=
  win0_0.fill (grid0.coords t) zfill (iblk m c 0 t)
/-- The second operand's likewise. -/
def zblk1 (c : Dev nD) (t : Fin cfg0.N) : S7816x128.Idx → Elt F .f32 :=
  win0_1.fill (grid0.coords t) zfill (iblk m c 1 t)

/-- One point's step of the accumulation: the payload over the point's two blocks and what the accumulator held. -/
def step (c : Dev nD) (t : Fin cfg0.N) (v : Vec F S8x128 .f32) : Vec F S8x128 .f32 :=
  k0_pay2 (grid0.coords t) (zblk0 m c t) (zblk1 m c t) v

/-- THE ACCUMULATION. What the result's staging buffer holds after the body at position `n`: at the first point of
    each half of the grid the step over the zero block, at every other point the step over what the point before left. -/
def acc (c : Dev nD) : (n : ℕ) → n < cfg0.N → Vec F S8x128 .f32
  | 0, hn => step m c ⟨0, hn⟩ (k0_pay1 (F := F))
  | n + 1, hn =>
    if (n + 1) % 20 = 0 then step m c ⟨n + 1, hn⟩ (k0_pay1 (F := F))
    else step m c ⟨n + 1, hn⟩ (acc c n (Nat.lt_of_succ_lt hn))

theorem acc_A (c : Dev nD) (t : Fin cfg0.N) (h0 : t.val % 20 = 0) :
    acc m c t.val t.isLt = step m c t (k0_pay1 (F := F)) := by
  obtain ⟨n, hn⟩ := t
  cases n with
  | zero => rfl
  | succ n => exact (if_pos h0).trans rfl

theorem acc_B (c : Dev nD) (t : Fin cfg0.N) (h0 : ¬t.val % 20 = 0) :
    acc m c t.val t.isLt = step m c t (acc m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the one pipeline on core `c`: the arrays as the region finds them; after the body at point `t`
    the two input buffers at their blocks (stated on the rows inside the array only: the windows are loose) and the
    result's at the accumulation; the invariant is the core's scoped rest and generator register, which the body never touches;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => zblk0 m c t
    | ⟨1, _⟩ => zblk1 m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = zblk0 m c t := by dsimp only [dats]
theorem after0_1 (c : Dev nD) (t : Fin cfg0.N) : (dats m 0 c).after 1 t = zblk1 m c t := by dsimp only [dats]
theorem after0_2 (c : Dev nD) (t : Fin cfg0.N) : (dats m 0 c).after 2 t = acc m c t.val t.isLt := by dsimp only [dats]

/-- An input's buffer, fetched at every point, holds its block on the rows inside the array and `d` past them. -/
theorem before0_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]
theorem before0_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- At the first point of each half the result's buffer holds anything: it is fresh, or was just written back. -/
theorem before0_2_A (c : Dev nD) (t : Fin cfg0.N) (h0 : t.val % 20 = 0) (d) : (dats m 0 c).before 2 t d = d := by
  have hN : t.val < 40 := lt_of_lt_of_eq t.isLt (show cfg0.N = 40 from N_0)
  refine Dat.before_out_reset _ 2 rfl t ?_ d
  by_cases ht : t.val = 0
  · exact .inl ht
  · exact .inr ⟨ht, (flush0_2 _).mpr (by dsimp only; omega)⟩

/-- At every other point it holds what the body left at the point before. -/
theorem before0_2_B (c : Dev nD) (t : Fin cfg0.N) (h0 : ¬t.val % 20 = 0) (d) :
    (dats m 0 c).before 2 t d = acc m c (t.val - 1) (Nat.lt_of_le_of_lt (Nat.sub_le _ _) t.isLt) := by
  have hN : t.val < 40 := lt_of_lt_of_eq t.isLt (show cfg0.N = 40 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

/-- What the body is called with at point `t`: each window's current buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns: the two input buffers stated on the rows inside the array, the result's exactly. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ owns (c : Thread nD τ) (ms0_2 t) fullShare ((dats m 0 c).after 2 t))

set_option maxHeartbeats 800000 in
/-- The body at any point. The input buffers arrive holding their blocks filled out past the array's end with
    anything; the mask makes the payload blind to that filler, so the result's buffer ends at the accumulation,
    which is stated over the zero-filled blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hx0 : win0_0.cut (grid0.coords t) (zblk0 m c t) = iblk m c 0 t := win0_0.cut_fill _ _ _
  have hx1 : win0_1.cut (grid0.coords t) (zblk1 m c t) = iblk m c 1 t := win0_1.cut_fill _ _ _
  rw [hx0, hx1]
  by_cases h0 : t.val % 20 = 0
  · rw [acc_A m c t h0]
    unfold step zblk0 zblk1
    simp only [before0_2_A m c t h0]
    iintro ⟨HΦ, Ho, ⟨%d0, H0⟩, ⟨%d1, H1⟩, ⟨%d2, H2⟩⟩
    iapply (runA c (grid0.coords t) _ _ _ _ _ _ ((hcond0 t).mpr h0) (win0_0.fill (grid0.coords t) d0 (iblk m c 0 t))
      (win0_1.fill (grid0.coords t) d1 (iblk m c 1 t)) d2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexists d0; iexact H0
    isplitl [H1]; · iexists d1; iexact H1
    rw [Cert.KernelIdeal.Mask.pay2_fill t zfill d0 zfill d1 (iblk m c 0 t) (iblk m c 1 t) (k0_pay1 (F := F))]
    iexact H2
  · rw [acc_B m c t h0]
    unfold step zblk0 zblk1
    simp only [before0_2_B m c t h0]
    iintro ⟨HΦ, Ho, ⟨%d0, H0⟩, ⟨%d1, H1⟩, ⟨%d2, H2⟩⟩
    iapply (runB c (grid0.coords t) _ _ _ _ _ _ (fun h => h0 ((hcond0 t).mp h)) (win0_0.fill (grid0.coords t) d0 (iblk m c 0 t))
      (win0_1.fill (grid0.coords t) d1 (iblk m c 1 t)) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexists d0; iexact H0
    isplitl [H1]; · iexists d1; iexact H1
    rw [Cert.KernelIdeal.Mask.pay2_fill t zfill d0 zfill d1 (iblk m c 0 t) (iblk m c 1 t) (acc m c (t.val - 1) (Nat.lt_of_le_of_lt (Nat.sub_le _ _) t.isLt))]
    iexact H2

/-- The library's body obligation, at every point (its loose form: the input windows' blocks overhang their arrays). -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline ends at what the proof data computes and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.IdealPayload.lean ====
/-
  What the squared-difference kernel's body stores, at the ideal values.

  The first payload is the zero splat.  The second is the accumulator block plus ONE number added to each of its
  entries: the sum, over the rows of the two input blocks that lie inside the array and over the 128 lanes, of the
  squared differences of the two blocks.  The two lane sums are plain sums of extended reals, the casts between
  `[7816]`, `[7816, 1]`, `[1]` and `[1, 1]` read the same entry, and the broadcast to `[8, 128]` reads the one entry.
-/
import proofs.«130651_j28741921145432_2_alg».proof.Proof.IdealMask
import proofs.«130651_j28741921145432_2_alg».proof.Proof.LibLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Cert.KernelIdeal.Mask Idealize.ShloMosaic Idealize.ShloMosaic.ValueIdx
open scoped BigOperators

/-- The first payload is the zero splat. -/
theorem pay1_apply (j : S8x128.Idx) : k0_pay1 (F := Ideal) j = 0 := by
  show Ideal.ofBits .f32 0x00000000#32 = 0
  exact Ideal.ofBits_zero_f32

/-- Over result index `(0)` the column's source index with row coordinate `r` is `(r, 0)`. -/
theorem lift_col (r : Fin 7816) :
    reduces_S7816x1_S1.lift (ix1 (0 : Fin 1)) r = ix2 r (0 : Fin 1) :=
  funext fun c => match c with
    | ⟨0, _⟩ => Fin.ext rfl
    | ⟨1, _⟩ => Fin.ext rfl

/-- Over result index `(r)` the block's source index with lane coordinate `l` is `(r, l)`. -/
theorem lift_lane (r : Fin 7816) (l : Fin 128) :
    reduces_S7816x128_S7816.lift (ix1 r) l = ix2 r l :=
  funext fun c => match c with
    | ⟨0, _⟩ => Fin.ext rfl
    | ⟨1, _⟩ => Fin.ext rfl

/-- The rest of the payload at the ideal values: the accumulator plus the sum of the masked value over the block. -/
theorem payTail_apply (s : FVec Ideal S7816x128 .f32) (v : FVec Ideal S8x128 .f32) (j : S8x128.Idx) :
    payTail (F := Ideal) s v j = v j + ∑ r : Fin 7816, ∑ l : Fin 128, s (ix2 r l) := by
  show addf (shapeCast S8x128 v shapeCasts_S8x128_S8x128)
      (broadcastTo S8x128 (shapeCast S1x1 (shapeCast S1x1
        (multiReduction .add [0] S1 (shapeCast S7816x1
          (multiReduction .add [1] S7816 s 0x00000000#32 reduces_S7816x128_S7816 (.inl rfl) rfl)
          shapeCasts_S7816_S7816x1) 0x00000000#32 reduces_S7816x1_S1 (.inl rfl) rfl)
        shapeCasts_S1_S1x1) shapeCasts_S1x1_S1x1) broadcasts_S1x1_S8x128) j = _
  rw [shapeCast_self, shapeCast_self, addf_apply]
  congr 1
  rw [broadcastTo_apply _ _ j (ix2 (0 : Fin 1) (0 : Fin 1)) (fun a => match a with | ⟨0, _⟩ => rfl | ⟨1, _⟩ => rfl)]
  rw [Cert.Bridge.Layout.shapeCast_a_a1_apply]
  refine (Ideal.multiReduction_add_single _ _ _ _ _ _).trans ?_
  show ∑ r : Fin 7816, _ = _
  refine Finset.sum_congr rfl fun r _ => ?_
  rw [lift_col r, Cert.Bridge.Layout.shapeCast_a_a1_apply]
  refine (Ideal.multiReduction_add_single _ _ _ _ _ _).trans ?_
  show ∑ l : Fin 128, _ = _
  refine Finset.sum_congr rfl fun l _ => ?_
  rw [lift_lane r l]

/-- The second payload at the ideal values: the accumulator plus the sum, over the block's rows inside the array,
    of the squared differences. -/
theorem pay2_apply (t : Fin cfg0.N) (X0 X1 : FVec Ideal S7816x128 .f32) (v : FVec Ideal S8x128 .f32) (j : S8x128.Idx) :
    k0_pay2 (F := Ideal) (grid0.coords t) X0 X1 v j
      = v j + ∑ r : Fin 7816, ∑ l : Fin 128,
          (if t.val * 7816 + r.val < 312500 then (X0 (ix2 r l) - X1 (ix2 r l)) * (X0 (ix2 r l) - X1 (ix2 r l)) else 0) := by
  rw [k0_pay2_eq, payTail_apply]
  congr 1
  refine Finset.sum_congr rfl fun r _ => Finset.sum_congr rfl fun l _ => ?_
  rw [masked_apply]
  split
  · rfl
  · exact Ideal.ofBits_zero_f32

end Cert.KernelIdeal.Payload

end
-- ==== Proof.IdealHost.lean ====
/-
  The host operations around the kernel region of the squared-difference program, read at an index.

  Before the region the two arguments, arrays [4000000, 10], are reshaped row-major to [312500, 128]: element (R, l) of
  a reshaped array is the argument's element (n, k) with n * 10 + k = R * 128 + l.  A block of 7816 rows at grid point
  t is rows t * 7816 … t * 7816 + 7815 of the reshaped array, so a block row that the transfer moves reads the reshaped
  array's row t * 7816 + r.  After the region the result, an array [16, 128], is read at (0, 0) and (8, 0); the two
  elements are added, the sum is multiplied by the constant one half, and the product is returned as a one-element array.
-/
import proofs.«130651_j28741921145432_2_alg».proof.Proof.Gen.KernelIdeal.Frame
import proofs.«130651_j28741921145432_2_alg».proof.Proof.IdealMask
import Idealize.ShloMosaic.Lib.StableHlo.Run
import Idealize.ShloMosaic.Lib.Pipeline.FrameSuffix
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-! ## Before the region: the reshaped arguments -/

/-- The first reshaped argument as the region finds it: the row-major reshape of the first argument. -/
theorem V_main_v0_eq (c : Dev nD) :
    (V m c main_v0 : S312500x128.Idx → Elt F .f32)
      = shapeCast S312500x128 (m ((c : Thread nD τ).loc main_arg0) : S4000000x10.Idx → Elt F .f32) shapeCasts_S4000000x10_S312500x128 := by
  show StableHlo.after hostOps0 (fun b => m (c, b)) (Proc.devRef .tc main_v0) = _
  after_results
  rfl

/-- The second reshaped argument likewise. -/
theorem V_main_v1_eq (c : Dev nD) :
    (V m c main_v1 : S312500x128.Idx → Elt F .f32)
      = shapeCast S312500x128 (m ((c : Thread nD τ).loc main_arg1) : S4000000x10.Idx → Elt F .f32) shapeCasts_S4000000x10_S312500x128 := by
  show StableHlo.after hostOps0 (fun b => m (c, b)) (Proc.devRef .tc main_v1) = _
  after_results
  rfl

/-- A row-major reshape [4000000, 10] → [312500, 128] read at (R, l): the element at the same flat position
    R * 128 + l = n * 10 + k. -/
theorem reshape_apply {α : Type} (x : S4000000x10.Idx → α) (R : Fin 312500) (l : Fin 128) :
    shapeCast S312500x128 x shapeCasts_S4000000x10_S312500x128 (ix2 R l)
      = x (ix2 (⟨(R.val * 128 + l.val) / 10, by omega⟩ : Fin 4000000) (⟨(R.val * 128 + l.val) % 10, Nat.mod_lt _ (by norm_num)⟩ : Fin 10)) := by
  refine shapeCast_apply x _ _ _ ?_
  rw [Shape.rowMajor_val_two, Shape.rowMajor_val_two]
  show (R.val * 128 + l.val) / 10 * 10 + (R.val * 128 + l.val) % 10 = R.val * 128 + l.val
  omega

/-- The first reshaped argument at (R, l). -/
theorem V_main_v0_apply (c : Dev nD) (R : Fin 312500) (l : Fin 128) :
    (V m c main_v0 : S312500x128.Idx → Elt F .f32) (ix2 R l)
      = (m ((c : Thread nD τ).loc main_arg0) : S4000000x10.Idx → Elt F .f32)
          (ix2 (⟨(R.val * 128 + l.val) / 10, by omega⟩ : Fin 4000000) (⟨(R.val * 128 + l.val) % 10, Nat.mod_lt _ (by norm_num)⟩ : Fin 10)) := by
  rw [V_main_v0_eq]
  exact reshape_apply _ R l

/-- The second reshaped argument at (R, l). -/
theorem V_main_v1_apply (c : Dev nD) (R : Fin 312500) (l : Fin 128) :
    (V m c main_v1 : S312500x128.Idx → Elt F .f32) (ix2 R l)
      = (m ((c : Thread nD τ).loc main_arg1) : S4000000x10.Idx → Elt F .f32)
          (ix2 (⟨(R.val * 128 + l.val) / 10, by omega⟩ : Fin 4000000) (⟨(R.val * 128 + l.val) % 10, Nat.mod_lt _ (by norm_num)⟩ : Fin 10)) := by
  rw [V_main_v1_eq]
  exact reshape_apply _ R l

/-! ## After the region: half the sum of two elements of the result -/

/-- A reshape of a scalar to one element reads the scalar. -/
theorem shapeCast_scalar_one_apply {α : Type} (x : S_.Idx → α) (h : S_.ShapeCasts S1) (i : S1.Idx) :
    shapeCast S1 x h i = x ix0 := by
  refine shapeCast_apply x h i ix0 ?_
  rw [Shape.rowMajor_val_one]
  have h0 : (i 0).val < 1 := (i 0).isLt
  have h1 : ((S_ : Shape).rowMajor ix0).val < 1 := ((S_ : Shape).rowMajor ix0).isLt
  omega

/-- A reshape of a 1×1 array to a scalar reads its one element. -/
theorem shapeCast_one_scalar_apply {α : Type} (x : S1x1.Idx → α) (h : S1x1.ShapeCasts S_) (i : S_.Idx) :
    shapeCast S_ x h i = x (ix2 (0 : Fin 1) (0 : Fin 1)) := by
  refine shapeCast_apply x h i _ ?_
  rw [Shape.rowMajor_val_two]
  have h1 : ((S_ : Shape).rowMajor i).val < 1 := ((S_ : Shape).rowMajor i).isLt
  show 0 * 1 + 0 = _
  omega

/-- The host operations after the region, as one function of the region's result: half the sum of its elements
    (0, 0) and (8, 0), as a one-element array. -/
def tailFn (out : Vec F S16x128 .f32) : Vec F S1 .f32 :=
  shapeCast S1
    (mulf (constant (F := F) S_ .f32 0x3F000000#32)
      (addf (shapeCast S_ (extractStridedSlice S1x1 ![0, 0] out slices_S16x128_S1x1_0_0) shapeCasts_S1x1_S_)
        (shapeCast S_ (extractStridedSlice S1x1 ![8, 0] out slices_S16x128_S1x1_8_0) shapeCasts_S1x1_S_)))
    shapeCasts_S_S1

/-- The program's result after the host operations that follow the region is that function of the region's result
    array. -/
theorem tail_eq (dats : (p : Fin 1) → (c : Dev nD) → Pipeline.Dat τ (Elt F) Unit ℕ (UR sig nD τ) ℕ (cfgs p) c) (c : Dev nD) :
    Pipeline.afterTail₀ cfgs dats 0 (V0 m) [hostOps1] c main_v9 = tailFn ((dats 0 c).arrAt 2 cfg0.N) := by
  unfold Pipeline.afterTail₀
  show StableHlo.after hostOps1 _ (Proc.devRef .tc main_v9) = _
  after_results
  have e : Pipeline.withArrays (cfgs 0).spec c (V0 m c) (fun w => (dats 0 c).arrAt w (cfgs 0).N) (Proc.devRef .tc main_v2)
      = (dats 0 c).arrAt 2 cfg0.N :=
    Pipeline.withArrays_arr spec0 launch0.win.arr_inj c (V0 m c) (fun w => (dats 0 c).arrAt w (cfgs 0).N) 2
  rw [e]
  rfl

/-- At the ideal instance: one half times the sum of the result's elements (0, 0) and (8, 0). -/
theorem tailFn_apply (out : FVec Ideal S16x128 .f32) (i : S1.Idx) :
    tailFn (F := Ideal) out i
      = Ideal.ofBits .f32 0x3F000000#32 * (out (ix2 (0 : Fin 16) (0 : Fin 128)) + out (ix2 (8 : Fin 16) (0 : Fin 128))) := by
  unfold tailFn
  rw [shapeCast_scalar_one_apply, mulf_apply, addf_apply, constant_apply, shapeCast_one_scalar_apply, shapeCast_one_scalar_apply]
  congr 2
  · exact extractStridedSlice_apply _ out _ _ _ (fun a => by
      match a with
      | ⟨0, _⟩ => rfl
      | ⟨1, _⟩ => rfl)
  · exact extractStridedSlice_apply _ out _ _ _ (fun a => by
      match a with
      | ⟨0, _⟩ => rfl
      | ⟨1, _⟩ => rfl)

/-! ## A block row that the transfer moves is a row of the reshaped array -/

/-- Row r, lane l of the first operand's block at point t, where the row is inside the array: the reshaped array's
    element (t * 7816 + r, l). -/
theorem fill_iblk0_apply (c : Dev nD) (t : Fin cfg0.N) (d : S7816x128.Idx → Elt F .f32) (r : Fin 7816) (l : Fin 128)
    (h : t.val * 7816 + r.val < 312500) :
    win0_0.fill (grid0.coords t) d (iblk m c 0 t) (ix2 r l)
      = (V m c main_v0 : S312500x128.Idx → Elt F .f32) (ix2 (⟨t.val * 7816 + r.val, h⟩ : Fin 312500) l) := by
  have hm : win0_0.moved (grid0.coords t) (ix2 r l) = true := (Mask.moved_iff_row t (ix2 r l)).mpr h
  unfold Pipeline.Window.fill
  rw [dif_pos hm]
  unfold iblk
  rw [View.read_apply]
  show (V m c main_v0 : S312500x128.Idx → Elt F .f32) ((win0_0.rect t).emb _) = _
  congr 1
  funext a
  refine Fin.ext ?_
  rw [Pipeline.Window.rect_emb_val]
  obtain ⟨h0, h1⟩ := Mask.index0_closed t
  match a with
  | ⟨0, _⟩ =>
    show cc0_transform_0 (grid0.coords t) 0 * 7816 + r.val = t.val * 7816 + r.val
    rw [h0]
  | ⟨1, _⟩ =>
    show cc0_transform_0 (grid0.coords t) 1 * 128 + l.val = l.val
    rw [h1]; omega

/-- Row r, lane l of the second operand's block at point t likewise. -/
theorem fill_iblk1_apply (c : Dev nD) (t : Fin cfg0.N) (d : S7816x128.Idx → Elt F .f32) (r : Fin 7816) (l : Fin 128)
    (h : t.val * 7816 + r.val < 312500) :
    win0_1.fill (grid0.coords t) d (iblk m c 1 t) (ix2 r l)
      = (V m c main_v1 : S312500x128.Idx → Elt F .f32) (ix2 (⟨t.val * 7816 + r.val, h⟩ : Fin 312500) l) := by
  have hm : win0_1.moved (grid0.coords t) (ix2 r l) = true := (Mask.moved_iff_row1 t (ix2 r l)).mpr h
  unfold Pipeline.Window.fill
  rw [dif_pos hm]
  unfold iblk
  rw [View.read_apply]
  show (V m c main_v1 : S312500x128.Idx → Elt F .f32) ((win0_1.rect t).emb _) = _
  congr 1
  funext a
  refine Fin.ext ?_
  rw [Pipeline.Window.rect_emb_val]
  obtain ⟨h0, h1⟩ := Mask.index1_closed t
  match a with
  | ⟨0, _⟩ =>
    show cc0_transform_1 (grid0.coords t) 0 * 7816 + r.val = t.val * 7816 + r.val
    rw [h0]
  | ⟨1, _⟩ =>
    show cc0_transform_1 (grid0.coords t) 1 * 128 + l.val = l.val
    rw [h1]; omega

end Cert.KernelIdeal.Host

end
-- ==== Proof.IdealOut.lean ====
/-
  What the result array holds after the run, at the first entry of each of its two blocks.

  The result array has 16 rows in two blocks of 8.  The result window writes block 0 back after point 19 and block 1
  after point 39, each time with what the accumulation holds at that point; the two blocks are disjoint and nothing
  else writes the array.  So after the run row `i` of the array is row `i % 8` of the accumulation at point 19 if
  `i < 8` and at point 39 otherwise.
-/
import proofs.«130651_j28741921145432_2_alg».proof.Proof.IdealBody
import Idealize.ShloMosaic.Lib.Pipeline.Value
import Idealize.ShloMosaic.Lib.ValueIdx

set_option maxRecDepth 16384

noncomputable section

namespace Cert.KernelIdeal.Out

open Cert.KernelIdeal Cert.KernelIdeal.Gen Cert.KernelIdeal.Body Idealize.ShloMosaic Idealize.ShloMosaic.TcCoe
open Idealize.ShloMosaic.ValueIdx Idealize.SL.Sem

variable {F : FTy → Type} [FloatOps F] (m : (ℓ : Loc nD τ sig) → Buf (Elt F) ℓ)

/-- The result window's block index at point `t` is `(t / 20, 0)`. -/
theorem index2_closed : ∀ t : Fin cfg0.N, win0_2.index t 0 = t.val / 20 ∧ win0_2.index t 1 = 0 :=
  (by decide +kernel : ∀ t : Fin grid0.N, win0_2.index t 0 = t.val / 20 ∧ win0_2.index t 1 = 0)

theorem h19 : 19 < cfg0.N := by rw [show cfg0.N = 40 from N_0]; decide
theorem h39 : 39 < cfg0.N := by rw [show cfg0.N = 40 from N_0]; decide

/-- The accumulation depends on the position only. -/
theorem acc_congr (c : Dev nD) {n n' : ℕ} (h : n = n') (hn : n < cfg0.N) (hn' : n' < cfg0.N) :
    acc m c n hn = acc m c n' hn' := by subst h; rfl

/-- The whole result array as the two write-backs leave it: rows 0–7 from the accumulation at point 19, rows 8–15 from
    the accumulation at point 39. -/
def G (c : Dev nD) : S16x128.Idx → Elt F .f32 := fun i =>
  if (i 0).val < 8 then acc m c 19 h19 (ix2 (⟨(i 0).val % 8, Nat.mod_lt _ (by decide)⟩ : Fin 8) (i 1))
  else acc m c 39 h39 (ix2 (⟨(i 0).val % 8, Nat.mod_lt _ (by decide)⟩ : Fin 8) (i 1))

/-- An index of the array is in point `t`'s block iff each coordinate is in the block's range on its axis. -/
theorem mem_blk2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- What a flushing point writes back is its block of `G`. -/
theorem flushed2_eq (c : Dev nD) (t : Fin cfg0.N) (hf : (cfg0.win 2).flush t = true) :
    (dats m 0 c).flushed 2 t = ((cfg0.win 2).blk t).view.read (Elt F) (G m c) := by
  show (cfg0.win 2).cut (grid0.coords t) ((dats m 0 c).after 2 t) = _
  rw [after0_2]
  have hm : t.val % 20 = 19 := (flush0_2 t).mp hf
  have hN : t.val < 40 := lt_of_lt_of_eq t.isLt (show cfg0.N = 40 from N_0)
  obtain ⟨e0, e1⟩ := index2_closed t
  funext j
  have hj0 : (j 0).val < 8 := (j 0).isLt
  have hj1 : (j 1).val < 128 := (j 1).isLt
  show acc m c t.val t.isLt (win0_2.xinj (grid0.coords t) j) = G m c (((cfg0.win 2).blk t).view.emb j)
  have v0 : ((((cfg0.win 2).blk t).view.emb j) 0).val = win0_2.index t 0 * 8 + 1 * (j 0).val := rfl
  have v1 : ((((cfg0.win 2).blk t).view.emb j) 1).val = win0_2.index t 1 * 128 + 1 * (j 1).val := rfl
  have ht : t.val = 19 ∨ t.val = 39 := by omega
  unfold G
  rcases ht with ht | ht
  · have i0 : win0_2.index t 0 = 0 := by rw [e0, ht]
    have hlt : ((((cfg0.win 2).blk t).view.emb j) 0).val < 8 := by rw [v0, i0]; omega
    rw [if_pos hlt, acc_congr m c ht t.isLt h19]
    congr 1
    funext a; apply Fin.ext
    match a with
    | ⟨0, _⟩ => show (j 0).val = ((((cfg0.win 2).blk t).view.emb j) 0).val % 8; rw [v0, i0]; omega
    | ⟨1, _⟩ => show (j 1).val = ((((cfg0.win 2).blk t).view.emb j) 1).val; rw [v1, e1]; omega
  · have i0 : win0_2.index t 0 = 1 := by rw [e0, ht]
    have hlt : ¬((((cfg0.win 2).blk t).view.emb j) 0).val < 8 := by rw [v0, i0]; omega
    rw [if_neg hlt, acc_congr m c ht t.isLt h39]
    congr 1
    funext a; apply Fin.ext
    match a with
    | ⟨0, _⟩ => show (j 0).val = ((((cfg0.win 2).blk t).view.emb j) 0).val % 8; rw [v0, i0]; omega
    | ⟨1, _⟩ => show (j 1).val = ((((cfg0.win 2).blk t).view.emb j) 1).val; rw [v1, e1]; omega

/-- After the run an index in a flushing point's block reads `G`. -/
theorem arrAt_of_mem (c : Dev nD) (t : Fin cfg0.N) (hf : (cfg0.win 2).flush t = true) (i : S16x128.Idx)
    (hi : i ∈ ((cfg0.win 2).blk t).view.set) :
    ((dats m 0 c).arrAt 2 cfg0.N : S16x128.Idx → Elt F .f32) i = G m c i :=
  (dats m 0 c).arrAt_apply_of_mem 2 (G m c) (fun t hf => flushed2_eq m c t hf) cfg0.N t i t.isLt hf hi

/-- The array's entry (0, 0) after the run is the accumulation's entry (0, 0) at point 19. -/
theorem out_first (c : Dev nD) (h19' : 19 < cfg0.N) :
    ((dats m 0 c).arrAt 2 cfg0.N : S16x128.Idx → Elt F .f32) (ix2 (0 : Fin 16) (0 : Fin 128))
      = acc m c 19 h19' (ix2 (0 : Fin 8) (0 : Fin 128)) := by
  have e0 : win0_2.index ⟨19, h19'⟩ 0 = 0 := (index2_closed ⟨19, h19'⟩).1.trans (show (19 : ℕ) / 20 = 0 from by decide)
  have e1 : win0_2.index ⟨19, h19'⟩ 1 = 0 := (index2_closed ⟨19, h19'⟩).2
  rw [arrAt_of_mem m c ⟨19, h19'⟩ ((flush0_2 ⟨19, h19'⟩).mpr (show 19 % 20 = 19 from by decide)) _ ((mem_blk2 _ _).mpr fun a => by
    match a with
    | ⟨0, _⟩ => show win0_2.index ⟨19, h19'⟩ 0 * 8 ≤ 0 ∧ 0 < win0_2.index ⟨19, h19'⟩ 0 * 8 + 8; rw [e0]; decide
    | ⟨1, _⟩ => show win0_2.index ⟨19, h19'⟩ 1 * 128 ≤ 0 ∧ 0 < win0_2.index ⟨19, h19'⟩ 1 * 128 + 128; rw [e1]; decide)]
  rfl

/-- The array's entry (8, 0) after the run is the accumulation's entry (0, 0) at point 39. -/
theorem out_second (c : Dev nD) (h39' : 39 < cfg0.N) :
    ((dats m 0 c).arrAt 2 cfg0.N : S16x128.Idx → Elt F .f32) (ix2 (8 : Fin 16) (0 : Fin 128))
      = acc m c 39 h39' (ix2 (0 : Fin 8) (0 : Fin 128)) := by
  have e0 : win0_2.index ⟨39, h39'⟩ 0 = 1 := (index2_closed ⟨39, h39'⟩).1.trans (show (39 : ℕ) / 20 = 1 from by decide)
  have e1 : win0_2.index ⟨39, h39'⟩ 1 = 0 := (index2_closed ⟨39, h39'⟩).2
  rw [arrAt_of_mem m c ⟨39, h39'⟩ ((flush0_2 ⟨39, h39'⟩).mpr (show 39 % 20 = 19 from by decide)) _ ((mem_blk2 _ _).mpr fun a => by
    match a with
    | ⟨0, _⟩ => show win0_2.index ⟨39, h39'⟩ 0 * 8 ≤ 8 ∧ 8 < win0_2.index ⟨39, h39'⟩ 0 * 8 + 8; rw [e0]; decide
    | ⟨1, _⟩ => show win0_2.index ⟨39, h39'⟩ 1 * 128 ≤ 0 ∧ 0 < win0_2.index ⟨39, h39'⟩ 1 * 128 + 128; rw [e1]; decide)]
  rfl

end Cert.KernelIdeal.Out

end
-- ==== Proof.LibSumBlocks.lean ====
import Mathlib.Algebra.BigOperators.Fin
import Mathlib.Algebra.BigOperators.Intervals
import Mathlib.Tactic.NormNum
import Mathlib.Tactic.SplitIfs

/-!
# Three readings of one array of 40,000,000 entries

Let `g : ℕ → M` take values in an additive commutative monoid.

* `sum_fin_mul`: for any `a b`, summing `g (i * b + j)` over `i < a`, `j < b` is the sum of
  `g` over `range (a * b)` (row-major enumeration of an `a × b` grid).
* `sum_rows10`: 4,000,000 rows of 10 entries sum to the sum over `range 40000000`.
* `sum_blocks`: 312,500 rows of 128 entries, cut into 40 blocks of 7,816 rows; the last block
  overhangs (`39 * 7816 = 304824`, `312500 - 304824 = 7676` rows remain, 140 overhang) and the
  overhanging rows are replaced by zero.  The masked triple sum is the sum over `range 40000000`.
* `acc_two_halves`: an accumulator over 40 points that is reset at every point `≡ 0 (mod 20)`
  and otherwise adds the point's part to what the previous point left; the values at points
  19 and 39 are the totals of the two halves, so their sum is the total of all 40 parts.
-/

namespace Cert.SumBlocks

open Finset

variable {M : Type*} [AddCommMonoid M]

/-- Row-major enumeration of an `a × b` grid. -/
theorem sum_fin_mul (a b : ℕ) (g : ℕ → M) :
    (∑ i : Fin a, ∑ j : Fin b, g (i.val * b + j.val)) = ∑ e ∈ Finset.range (a * b), g e := by
  induction a with
  | zero => simp
  | succ a ih =>
    rw [Fin.sum_univ_castSucc, Nat.succ_mul, Finset.sum_range_add, ← ih]
    congr 1
    simp only [Fin.val_last]
    exact Fin.sum_univ_eq_sum_range (fun x => g (a * b + x)) b

/-- 4,000,000 rows of 10. -/
theorem sum_rows10 (g : ℕ → M) :
    (∑ n : Fin 4000000, ∑ k : Fin 10, g (n.val * 10 + k.val))
      = ∑ e ∈ Finset.range 40000000, g e := by
  have h := sum_fin_mul 4000000 10 g
  have e : (4000000 * 10 : ℕ) = 40000000 := by norm_num
  rw [e] at h
  exact h

/-- 40 blocks of 7,816 rows of 128, rows at or beyond 312,500 masked to zero. -/
theorem sum_blocks (g : ℕ → M) :
    (∑ t : Fin 40, ∑ r : Fin 7816, ∑ l : Fin 128,
        (if t.val * 7816 + r.val < 312500 then g ((t.val * 7816 + r.val) * 128 + l.val) else 0))
      = ∑ e ∈ Finset.range 40000000, g e := by
  -- the masked row sum as a function of the global row index
  set h : ℕ → M := fun R => if R < 312500 then ∑ l : Fin 128, g (R * 128 + l.val) else 0 with hh
  have step1 : (∑ t : Fin 40, ∑ r : Fin 7816, ∑ l : Fin 128,
        (if t.val * 7816 + r.val < 312500 then g ((t.val * 7816 + r.val) * 128 + l.val) else 0))
      = ∑ t : Fin 40, ∑ r : Fin 7816, h (t.val * 7816 + r.val) := by
    refine Finset.sum_congr rfl fun t _ => Finset.sum_congr rfl fun r _ => ?_
    simp only [hh]
    split_ifs
    · rfl
    · exact Finset.sum_const_zero
  rw [step1, sum_fin_mul 40 7816 h]
  have e1 : (40 * 7816 : ℕ) = 312640 := by norm_num
  rw [e1]
  have step2 : ∑ R ∈ Finset.range 312640, h R = ∑ R ∈ Finset.range 312500, h R := by
    symm
    apply Finset.sum_subset
    · intro x hx
      rw [Finset.mem_range] at hx ⊢
      omega
    · intro x _ hx
      rw [Finset.mem_range] at hx
      simp only [hh]
      rw [if_neg hx]
  have step3 : ∑ R ∈ Finset.range 312500, h R
      = ∑ R ∈ Finset.range 312500, ∑ l : Fin 128, g (R * 128 + l.val) := by
    refine Finset.sum_congr rfl fun R hR => ?_
    rw [Finset.mem_range] at hR
    simp only [hh]
    rw [if_pos hR]
  rw [step2, step3, ← Fin.sum_univ_eq_sum_range (fun R => ∑ l : Fin 128, g (R * 128 + l.val)) 312500,
    sum_fin_mul 312500 128 g]

/-- Within a stretch of 20 points starting at a reset point `c`, the accumulator at `c + k`
is the sum of the parts at `c, …, c + k`. -/
theorem acc_prefix (part S : ℕ → M)
    (h0 : ∀ n, n % 20 = 0 → S n = part n) (h1 : ∀ n, n % 20 ≠ 0 → S n = S (n - 1) + part n)
    (c : ℕ) (hc : c % 20 = 0) :
    ∀ k, k < 20 → S (c + k) = ∑ i ∈ Finset.range (k + 1), part (c + i) := by
  intro k
  induction k with
  | zero =>
    intro _
    simp [h0 c hc]
  | succ k ih =>
    intro hk
    have hne : (c + (k + 1)) % 20 ≠ 0 := by omega
    have hpred : c + (k + 1) - 1 = c + k := by omega
    rw [h1 _ hne, hpred, ih (by omega), Finset.sum_range_succ (fun i => part (c + i)) (k + 1)]

/-- The two halves' totals add up to the total of all 40 parts. -/
theorem acc_two_halves (part S : ℕ → M)
    (h0 : ∀ n, n % 20 = 0 → S n = part n) (h1 : ∀ n, n % 20 ≠ 0 → S n = S (n - 1) + part n) :
    S 19 + S 39 = ∑ t : Fin 40, part t.val := by
  have a := acc_prefix part S h0 h1 0 (by norm_num) 19 (by norm_num)
  have b := acc_prefix part S h0 h1 20 (by norm_num) 19 (by norm_num)
  simp only [Nat.zero_add] at a
  have e39 : (20 + 19 : ℕ) = 39 := by norm_num
  have e20 : (19 + 1 : ℕ) = 20 := by norm_num
  rw [e39] at b
  rw [e20] at a b
  rw [a, b, Fin.sum_univ_eq_sum_range (fun t => part t) 40]
  have e40 : (40 : ℕ) = 20 + 20 := by norm_num
  rw [e40, Finset.sum_range_add]

end Cert.SumBlocks
-- ==== Proof.IdealTotal.lean ====
/-
  The value of the squared-difference kernel against its reference, at the ideal values.

  Both programs compute one half of the sum, over all 40,000,000 entries, of the squared difference of the two argument
  arrays. The reference sums the [4000000, 10] array of squared differences in one reduction. The kernel reads the
  arguments as 312500 rows of 128, walks them in 40 blocks of 7816 rows (the last one overhanging the array, its rows
  past the end masked to zero), accumulates the blocks' sums in two halves of 20 points, and adds the two halves' totals
  after the region. With `g e` the squared difference at flat position `e`, each point's part is the masked sum of
  `g` over its block, the accumulator after the last point of each half is the sum of its 20 parts, and the two row-major
  readings of the flat positions — rows of 10, rows of 128 in blocks of 7816 — enumerate the same 40,000,000 positions.
  No law beyond commutativity and associativity of addition is used, so finiteness of the inputs is not needed.
-/
import proofs.«130651_j28741921145432_2_alg».proof.Proof.IdealBody
import proofs.«130651_j28741921145432_2_alg».proof.Proof.IdealPayload
import proofs.«130651_j28741921145432_2_alg».proof.Proof.IdealHost
import proofs.«130651_j28741921145432_2_alg».proof.Proof.IdealOut
import proofs.«130651_j28741921145432_2_alg».proof.Proof.LibSumBlocks
import proofs.«130651_j28741921145432_2_alg».proof.Proof.Gen.ReferenceIdeal.Read
import Idealize.ShloMosaic.Lib.ValueIdx
import Idealize.ShloMosaic.PureOps.Ideal.Laws

set_option maxRecDepth 16384

noncomputable section

namespace Cert.KernelIdeal.Total

open Cert.KernelIdeal Cert.KernelIdeal.Gen Cert.KernelIdeal.Body
open Idealize.ShloMosaic Idealize.ShloMosaic.TcCoe Idealize.ShloMosaic.ValueIdx Idealize.SL.Sem

/-- The squared difference of two [4000000, 10] arrays at flat (row-major) position `e`; zero past the end. -/
def gflat (a b : (⟨2, ![4000000, 10]⟩ : Shape).Idx → EReal) (e : ℕ) : EReal :=
  if h : e < 40000000 then
    (a (ix2 (⟨e / 10, by omega⟩ : Fin 4000000) (⟨e % 10, Nat.mod_lt _ (by norm_num)⟩ : Fin 10))
        - b (ix2 (⟨e / 10, by omega⟩ : Fin 4000000) (⟨e % 10, Nat.mod_lt _ (by norm_num)⟩ : Fin 10)))
      * (a (ix2 (⟨e / 10, by omega⟩ : Fin 4000000) (⟨e % 10, Nat.mod_lt _ (by norm_num)⟩ : Fin 10))
        - b (ix2 (⟨e / 10, by omega⟩ : Fin 4000000) (⟨e % 10, Nat.mod_lt _ (by norm_num)⟩ : Fin 10)))
  else 0

/-- At the flat position of row `n`, column `k` it is the squared difference there. -/
theorem gflat_rows (a b : (⟨2, ![4000000, 10]⟩ : Shape).Idx → EReal) (n : Fin 4000000) (k : Fin 10) :
    gflat a b (n.val * 10 + k.val) = (a (ix2 n k) - b (ix2 n k)) * (a (ix2 n k) - b (ix2 n k)) := by
  have hn := n.isLt; have hk := k.isLt
  unfold gflat
  rw [dif_pos (by omega)]
  have e1 : (⟨(n.val * 10 + k.val) / 10, by omega⟩ : Fin 4000000) = n := Fin.ext (by show (n.val * 10 + k.val) / 10 = n.val; omega)
  have e2 : (⟨(n.val * 10 + k.val) % 10, Nat.mod_lt _ (by norm_num)⟩ : Fin 10) = k := Fin.ext (by show (n.val * 10 + k.val) % 10 = k.val; omega)
  rw [e1, e2]

variable (m : (ℓ : Loc nD τ sig) → Buf (Elt Ideal) ℓ)

/-- The two argument arrays on core `c`. -/
abbrev argA (c : Dev nD) : (⟨2, ![4000000, 10]⟩ : Shape).Idx → EReal := m ((c : Thread nD τ).loc main_arg0)
abbrev argB (c : Dev nD) : (⟨2, ![4000000, 10]⟩ : Shape).Idx → EReal := m ((c : Thread nD τ).loc main_arg1)

/-- One grid point's part: the sum of the squared differences over the rows of its block inside the array. -/
def part (c : Dev nD) (n : ℕ) : EReal :=
  ∑ r : Fin 7816, ∑ l : Fin 128,
    (if n * 7816 + r.val < 312500 then gflat (argA m c) (argB m c) ((n * 7816 + r.val) * 128 + l.val) else 0)

/-- A row of the first operand's zero-filled block inside the array is the argument at the row's flat positions. -/
theorem zblk0_apply (c : Dev nD) (t : Fin cfg0.N) (r : Fin 7816) (l : Fin 128) (h : t.val * 7816 + r.val < 312500) :
    zblk0 m c t (ix2 r l)
      = argA m c (ix2 (⟨((t.val * 7816 + r.val) * 128 + l.val) / 10, by have := l.isLt; omega⟩ : Fin 4000000)
          (⟨((t.val * 7816 + r.val) * 128 + l.val) % 10, Nat.mod_lt _ (by norm_num)⟩ : Fin 10)) := by
  unfold zblk0
  rw [Cert.KernelIdeal.Host.fill_iblk0_apply m c t _ r l h]
  exact Cert.KernelIdeal.Host.V_main_v0_apply m c ⟨t.val * 7816 + r.val, h⟩ l

theorem zblk1_apply (c : Dev nD) (t : Fin cfg0.N) (r : Fin 7816) (l : Fin 128) (h : t.val * 7816 + r.val < 312500) :
    zblk1 m c t (ix2 r l)
      = argB m c (ix2 (⟨((t.val * 7816 + r.val) * 128 + l.val) / 10, by have := l.isLt; omega⟩ : Fin 4000000)
          (⟨((t.val * 7816 + r.val) * 128 + l.val) % 10, Nat.mod_lt _ (by norm_num)⟩ : Fin 10)) := by
  unfold zblk1
  rw [Cert.KernelIdeal.Host.fill_iblk1_apply m c t _ r l h]
  exact Cert.KernelIdeal.Host.V_main_v1_apply m c ⟨t.val * 7816 + r.val, h⟩ l

/-- One step of the accumulation adds the point's part to every entry of the block. -/
theorem step_apply (c : Dev nD) (t : Fin cfg0.N) (v : FVec Ideal S8x128 .f32) (j : S8x128.Idx) :
    step m c t v j = v j + part m c t.val := by
  unfold step part
  rw [Cert.KernelIdeal.Payload.pay2_apply]
  congr 1
  refine Finset.sum_congr rfl fun r _ => Finset.sum_congr rfl fun l _ => ?_
  by_cases h : t.val * 7816 + r.val < 312500
  · rw [if_pos h, if_pos h, zblk0_apply m c t r l h, zblk1_apply m c t r l h]
    have hl := l.isLt
    unfold gflat
    rw [dif_pos (by omega)]
  · rw [if_neg h, if_neg h]

/-- Past the grid a part is an empty sum. -/
theorem part_zero (c : Dev nD) (n : ℕ) (hn : 40 ≤ n) : part m c n = 0 := by
  unfold part
  refine Finset.sum_eq_zero fun r _ => Finset.sum_eq_zero fun l _ => ?_
  rw [if_neg (by omega)]

/-- The accumulator's entry after position `n` (zero past the grid). -/
def accS (c : Dev nD) (n : ℕ) : EReal :=
  if h : n < cfg0.N then acc m c n h (ix2 (0 : Fin 8) (0 : Fin 128)) else 0

theorem accS_reset (c : Dev nD) (n : ℕ) (h0 : n % 20 = 0) : accS m c n = part m c n := by
  unfold accS
  by_cases h : n < cfg0.N
  · rw [dif_pos h, acc_A m c ⟨n, h⟩ h0, step_apply, Cert.KernelIdeal.Payload.pay1_apply, zero_add]
  · rw [dif_neg h, part_zero m c n (by have : cfg0.N = 40 := N_0; omega)]

theorem accS_add (c : Dev nD) (n : ℕ) (h0 : n % 20 ≠ 0) : accS m c n = accS m c (n - 1) + part m c n := by
  have hN : cfg0.N = 40 := N_0
  unfold accS
  by_cases h : n < cfg0.N
  · rw [dif_pos h, dif_pos (show n - 1 < cfg0.N by omega), acc_B m c ⟨n, h⟩ h0, step_apply]
  · rw [dif_neg h, dif_neg (show ¬(n - 1 < cfg0.N) by omega), part_zero m c n (by omega), add_zero]

/-- The two halves' totals together are the sum of the squared differences over all 40,000,000 flat positions. -/
theorem halves_total (c : Dev nD) :
    accS m c 19 + accS m c 39 = ∑ e ∈ Finset.range 40000000, gflat (argA m c) (argB m c) e := by
  rw [Cert.SumBlocks.acc_two_halves (part m c) (accS m c) (accS_reset m c) (accS_add m c)]
  exact Cert.SumBlocks.sum_blocks (gflat (argA m c) (argB m c))

/-- The reference's sum over the [4000000, 10] array is the same sum over the flat positions. -/
theorem rows_total (a b : (⟨2, ![4000000, 10]⟩ : Shape).Idx → EReal) :
    (∑ j : (⟨2, ![4000000, 10]⟩ : Shape).Idx, (a j - b j) * (a j - b j)) = ∑ e ∈ Finset.range 40000000, gflat a b e := by
  rw [sum_idx2, ← Cert.SumBlocks.sum_rows10 (gflat a b)]
  refine Finset.sum_congr rfl fun n _ => Finset.sum_congr rfl fun k _ => ?_
  rw [gflat_rows]

/-- The kernel's result: the lines after the region applied to the result array, at its one index. -/
theorem kernel_value (c : Dev nD) (i : S1.Idx) :
    Cert.KernelIdeal.Host.tailFn (F := Ideal) ((dats m 0 c).arrAt 2 cfg0.N) i
      = Ideal.ofBits .f32 0x3F000000#32 * ∑ e ∈ Finset.range 40000000, gflat (argA m c) (argB m c) e := by
  have h19 : 19 < cfg0.N := lt_of_lt_of_eq (by norm_num : 19 < 40) N_0.symm
  have h39 : 39 < cfg0.N := lt_of_lt_of_eq (by norm_num : 39 < 40) N_0.symm
  rw [Cert.KernelIdeal.Host.tailFn_apply, Cert.KernelIdeal.Out.out_first m c h19, Cert.KernelIdeal.Out.out_second m c h39]
  have ht := halves_total m c
  unfold accS at ht
  rw [dif_pos h19, dif_pos h39] at ht
  rw [ht]

/-- The reference's result at its one index. -/
theorem reference_value (a b : (⟨2, ![4000000, 10]⟩ : Shape).Idx → EReal) (i : S1.Idx) :
    Cert.ReferenceIdeal.Read.val_main_v4 (F := Ideal) a b i
      = Ideal.ofBits .f32 0x3F000000#32 * ∑ e ∈ Finset.range 40000000, gflat a b e := by
  unfold Cert.ReferenceIdeal.Read.val_main_v4
  rw [Cert.KernelIdeal.Host.shapeCast_scalar_one_apply, Cert.ReferenceIdeal.Read.val_main_v3_apply,
    Cert.ReferenceIdeal.Read.val_main_v2_apply]
  show Ideal.ofBits .f32 0x3F000000#32 * (Ideal.ofBits .f32 0x00000000#32 + ∑ j : (⟨2, ![4000000, 10]⟩ : Shape).Idx, (a j - b j) * (a j - b j)) = _
  rw [Ideal.ofBits_zero_f32, zero_add, rows_total]

/-- The idealized kernel's run with its result named: the reference's value of the same argument arrays. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v9) = Cert.ReferenceIdeal.Read.val_main_v4 (F := Ideal) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v9 (Pipeline.mem_restRefs_of main_v9 (by decide) (by decide))).trans
        ((Cert.KernelIdeal.Host.tail_eq m (dats m) c).trans
          (funext fun i => (kernel_value m c i).trans (reference_value (argA m c) (argB m c) i).symm)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main (F := Ideal) m ρ)

end Cert.KernelIdeal.Total

end
-- ==== Proof.lean ====
/-
  The certificate of the squared-difference kernel: one half of the sum of the squared differences of two
  [4000000, 10] arrays, computed by a pipelined kernel over 40 blocks of the arrays read as 312500 rows of 128
  (two halves of 20 blocks, each accumulated in place; the last block overhangs the array and its rows past the end
  are masked), against the reference's single sum.

  The three frames: the word-level and the idealized kernel run to the end with their arguments unchanged (the body's
  run and the pipeline's launch, Proof/BitsBody.lean and Proof/IdealBody.lean — one text at the two instances); the
  reference's frame is its run with the result dropped. The idealization rewrote nothing, so `preserves` is trivial.
  At the ideal values both results are one half of the sum of the squared differences over the 40,000,000 flat
  positions (Proof/IdealTotal.lean): the kernel's blocks and the reference's rows enumerate the same positions, and
  only commutativity and associativity of addition on the extended reals are used.
-/
import proofs.«130651_j28741921145432_2_alg».proof.Defs
import proofs.«130651_j28741921145432_2_alg».proof.Proof.Gen.Kernel
import proofs.«130651_j28741921145432_2_alg».proof.Proof.Gen.KernelIdeal
import proofs.«130651_j28741921145432_2_alg».proof.Proof.Gen.ReferenceIdeal
import proofs.«130651_j28741921145432_2_alg».proof.Proof.Gen.Pre_finite_inputs
import proofs.«130651_j28741921145432_2_alg».proof.Proof.Gen.ReferenceIdeal.Run
import proofs.«130651_j28741921145432_2_alg».proof.Proof.Gen.ReferenceIdeal.Read
import proofs.«130651_j28741921145432_2_alg».proof.Proof.BitsBody
import proofs.«130651_j28741921145432_2_alg».proof.Proof.IdealBody
import proofs.«130651_j28741921145432_2_alg».proof.Proof.IdealTotal

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Body.frame m ρ

theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories agreeing on the arguments both idealized programs end at the reference's value of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v4 (F := Ideal) (Cert.KernelIdeal.Total.argA m c) (Cert.KernelIdeal.Total.argB m c),
    Cert.KernelIdeal.Total.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
